-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000000x4 : Shape := ⟨2, ![20000000, 4]⟩
abbrev S_ : Shape := ⟨0, ![]⟩

class Facts : Prop where
  bcast_S_S20000000x4 : S_.BroadcastsInDim S20000000x4 (![] : Fin 0 → Fin S20000000x4.rank)
  reducesTo_S20000000x4_S_d0_1 : S20000000x4.ReducesTo [0, 1] S_
  h_S_ : 0 < S_.numel

variable [Facts]

def fn {F : FTy → Type} [FloatOps F] (main_arg0 : FVec F S20000000x4 .f32) : IVec S_ 1 :=
  let main_v0 : FVec F S20000000x4 .f32 := Host.absf main_arg0
  let main_cst : FVec F S_ .f32 := constant S_ .f32 0x7F800000#32
  let main_v1 : FVec F S20000000x4 .f32 := broadcastInDim S20000000x4 ![] bcast_S_S20000000x4 main_cst
  let main_v2 : IVec S20000000x4 1 := cmpf .olt main_v0 main_v1
  let main_c : IVec S_ 1 := constantI S_ 1 1#1
  let main_v3 : IVec S_ 1 := (fun x v => Host.reduce IntOp.andi x v reducesTo_S20000000x4_S_d0_1 h_S_) main_v2 main_c
  main_v3
-- ==== Kernel.lean ====
abbrev S20000000x4 : Shape := ⟨2, ![20000000, 4]⟩
abbrev S20000000x1 : Shape := ⟨2, ![20000000, 1]⟩
abbrev S20000000 : Shape := ⟨1, ![20000000]⟩
abbrev S1x20000000 : Shape := ⟨2, ![1, 20000000]⟩
abbrev S3x20000000 : Shape := ⟨2, ![3, 20000000]⟩
abbrev S2x48x32 : Shape := ⟨3, ![2, 48, 32]⟩
abbrev S3x400000 : Shape := ⟨2, ![3, 400000]⟩
abbrev S1x48x32 : Shape := ⟨3, ![1, 48, 32]⟩
abbrev S48x32 : Shape := ⟨2, ![48, 32]⟩
abbrev S48x1 : Shape := ⟨2, ![48, 1]⟩
abbrev S32x1 : Shape := ⟨2, ![32, 1]⟩
abbrev S1x16000 : Shape := ⟨2, ![1, 16000]⟩
abbrev S48x16000 : Shape := ⟨2, ![48, 16000]⟩
abbrev S32x16000 : Shape := ⟨2, ![32, 16000]⟩
abbrev S_ : Shape := ⟨0, ![]⟩
abbrev S2x24x32 : Shape := ⟨3, ![2, 24, 32]⟩

abbrev nBuf : Space → Nat
  | .hbm => 25
  | .vmem => 5
  | .smem => 0
  | _ => 0

abbrev bufTy : (tb : Table) → Fin (tcTables nBuf tb) → BufTy
  | .hbm, ⟨0, _⟩ => ⟨S20000000x4, .f32⟩
  | .hbm, ⟨1, _⟩ => ⟨S20000000x1, .f32⟩
  | .hbm, ⟨2, _⟩ => ⟨S20000000, .f32⟩
  | .hbm, ⟨3, _⟩ => ⟨S20000000x1, .f32⟩
  | .hbm, ⟨4, _⟩ => ⟨S20000000, .f32⟩
  | .hbm, ⟨5, _⟩ => ⟨S20000000x1, .f32⟩
  | .hbm, ⟨6, _⟩ => ⟨S20000000, .f32⟩
  | .hbm, ⟨7, _⟩ => ⟨S1x20000000, .f32⟩
  | .hbm, ⟨8, _⟩ => ⟨S1x20000000, .f32⟩
  | .hbm, ⟨9, _⟩ => ⟨S1x20000000, .f32⟩
  | .hbm, ⟨10, _⟩ => ⟨S3x20000000, .f32⟩
  | .hbm, ⟨11, _⟩ => ⟨S2x48x32, .f32⟩
  | .hbm, ⟨12, _⟩ => ⟨S1x48x32, .f32⟩
  | .hbm, ⟨13, _⟩ => ⟨S48x32, .f32⟩
  | .hbm, ⟨14, _⟩ => ⟨S1x48x32, .f32⟩
  | .hbm, ⟨15, _⟩ => ⟨S48x32, .f32⟩
  | .hbm, ⟨16, _⟩ => ⟨S48x32, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S48x32, .f32⟩
  | .hbm, ⟨22, _⟩ => ⟨S48x32, .f32⟩
  | .hbm, ⟨23, _⟩ => ⟨S48x32, .f32⟩
  | .hbm, ⟨24, _⟩ => ⟨S2x24x32, .f32⟩
  | .local _ .vmem, ⟨0, _⟩ => ⟨S3x400000, .f32⟩
  | .local _ .vmem, ⟨1, _⟩ => ⟨S3x400000, .f32⟩
  | .local _ .vmem, ⟨2, _⟩ => ⟨S1x48x32, .f32⟩
  | .local _ .vmem, ⟨3, _⟩ => ⟨S1x48x32, .f32⟩
  | .local _ .vmem, ⟨4, _⟩ => ⟨S48x32, .f32⟩
  | _, _ => ⟨S20000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 25], ![false, false]⟩

@[reducible] def k0_t1_loop : Scf.Loop 32 :=
  let c0_i32_1 : BitVec 32 := 0#32
  let c25_i32 : BitVec 32 := 25#32
  let v5 : BitVec 32 := Scalar.addi c0_i32_1 c25_i32
  let c1_i32 : BitVec 32 := 1#32
  ⟨c0_i32_1, v5, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg5 : BitVec 32 := Scf.iv c0_i32_1 c1_i32 k0_t1
  let c1_i32_4 : BitVec 32 := 1#32
  let v9 : BitVec 32 := Scalar.muli arg5 c1_i32_4
  let v10 : BitVec 32 := Scalar.addi c0_i32_5 v9
  let c16000_i32 : BitVec 32 := 16000#32
  let v11 : BitVec 32 := Scalar.muli v10 c16000_i32
  v11
def k0_off1 (k0_t1 : Fin k0_t1_loop.trips) : Fin 2 → Nat :=
  let c0 : Index := 0#32
  let c0_i32_5 : BitVec 32 := 0#32
  let c0_i32_1 : BitVec 32 := 0#32
  let c1_i32 : BitVec 32 := 1#32
  let arg5 : BitVec 32 := Scf.iv c0_i32_1 c1_i32 k0_t1
  let c1_i32_4 : BitVec 32 := 1#32
  let v9 : BitVec 32 := Scalar.muli arg5 c1_i32_4
  let v10 : BitVec 32 := Scalar.addi c0_i32_5 v9
  let c16000_i32 : BitVec 32 := 16000#32
  let v11 : BitVec 32 := Scalar.muli v10 c16000_i32
  let v12 : BitVec 32 := v11
  let v13 : Index := Scalar.indexCast v12
  ![0, v13.toNat]
def k0_off2 (k0_t1 : Fin k0_t1_loop.trips) : Fin 2 → Nat :=
  let c1 : Index := 1#32
  let c0_i32_5 : BitVec 32 := 0#32
  let c0_i32_1 : BitVec 32 := 0#32
  let c1_i32 : BitVec 32 := 1#32
  let arg5 : BitVec 32 := Scf.iv c0_i32_1 c1_i32 k0_t1
  let c1_i32_4 : BitVec 32 := 1#32
  let v9 : BitVec 32 := Scalar.muli arg5 c1_i32_4
  let v10 : BitVec 32 := Scalar.addi c0_i32_5 v9
  let c16000_i32 : BitVec 32 := 16000#32
  let v11 : BitVec 32 := Scalar.muli v10 c16000_i32
  let v12 : BitVec 32 := v11
  let v16 : Index := Scalar.indexCast v12
  ![1, v16.toNat]
def k0_off3 (k0_t1 : Fin k0_t1_loop.trips) : Fin 2 → Nat :=
  let c2 : Index := 2#32
  let c0_i32_5 : BitVec 32 := 0#32
  let c0_i32_1 : BitVec 32 := 0#32
  let c1_i32 : BitVec 32 := 1#32
  let arg5 : BitVec 32 := Scf.iv c0_i32_1 c1_i32 k0_t1
  let c1_i32_4 : BitVec 32 := 1#32
  let v9 : BitVec 32 := Scalar.muli arg5 c1_i32_4
  let v10 : BitVec 32 := Scalar.addi c0_i32_5 v9
  let c16000_i32 : BitVec 32 := 16000#32
  let v11 : BitVec 32 := Scalar.muli v10 c16000_i32
  let v12 : BitVec 32 := v11
  let v19 : Index := Scalar.indexCast v12
  ![2, v19.toNat]
def k0_cond2 (i : grid0.Coords) : BitVec 1 :=
  let arg1 : BitVec 32 := BitVec.ofNat 32 (i 1).val
  let c24_i32 : BitVec 32 := 24#32
  let v6 : BitVec 1 := Scalar.cmpi .eq arg1 c24_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x400000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  slices_S20000000x4_S20000000x1_0_0 : S20000000x4.Slices ![0, 0] S20000000x1
  shapeCasts_S20000000x1_S20000000 : S20000000x1.ShapeCasts S20000000
  slices_S20000000x4_S20000000x1_0_1 : S20000000x4.Slices ![0, 1] S20000000x1
  slices_S20000000x4_S20000000x1_0_3 : S20000000x4.Slices ![0, 3] S20000000x1
  bcast_S20000000_S1x20000000_1 : S20000000.BroadcastsInDim S1x20000000 (![1] : Fin 1 → Fin S1x20000000.rank)
  concatenates_S1x20000000_S1x20000000_S1x20000000_S3x20000000_d0 : Shape.Concatenates [S1x20000000, S1x20000000, S1x20000000] S3x20000000 0
  inb_S48x32_S48x32_0_0 : ∀ a, (![0, 0] : Fin 2 → Nat) a + S48x32.size a ≤ S48x32.size a
  h_S48x32 : 0 < S48x32.numel
  shapeCasts_S48x32_S48x32 : S48x32.ShapeCasts S48x32
  iota_S48x1_d0_w32 : S48x1.Iotas .tc 32 [0]
  iota_S32x1_d0_w32 : S32x1.Iotas .tc 32 [0]
  h_S1x16000 : 0 < S1x16000.numel
  shapeCasts_S1x16000_S1x16000 : S1x16000.ShapeCasts S1x16000
  broadcasts_S1x16000_S48x16000 : S1x16000.Broadcasts S48x16000
  broadcasts_S48x1_S48x16000 : S48x1.Broadcasts S48x16000
  natLt_1_32 : 1 < 32
  bitsLt_bf16_f32 : FTy.bits .bf16 < FTy.bits .f32
  broadcasts_S1x16000_S32x16000 : S1x16000.Broadcasts S32x16000
  broadcasts_S32x1_S32x16000 : S32x1.Broadcasts S32x16000
  inb_S1x48x32_S1x48x32_0_0_0 : ∀ a, (![0, 0, 0] : Fin 3 → Nat) a + S1x48x32.size a ≤ S1x48x32.size a
  h_S1x48x32 : 0 < S1x48x32.numel
  shapeCasts_S1x48x32_S48x32 : S1x48x32.ShapeCasts S48x32
  shapeCasts_S48x32_S1x48x32 : S48x32.ShapeCasts S1x48x32
  slices_S2x48x32_S1x48x32_0_0_0 : S2x48x32.Slices ![0, 0, 0] S1x48x32
  slices_S2x48x32_S1x48x32_1_0_0 : S2x48x32.Slices ![1, 0, 0] S1x48x32
  reducesTo_S48x32_S_d0_1 : S48x32.ReducesTo [0, 1] S_
  h_S_ : 0 < S_.numel
  bcast_S_S48x32 : S_.BroadcastsInDim S48x32 (![] : Fin 0 → Fin S48x32.rank)
  shapeCasts_S48x32_S2x24x32 : S48x32.ShapeCasts S2x24x32
  dot_S48x16000_S32x16000_S48x32_1_1_0_0_n_n_wf : DotDims.WF S48x16000 S32x16000 S48x32 [1] [1] [0] [0] [] []
  hrank0 : 0 < grid0.rank
  k0_t1_ok : k0_t1_loop.OK
  k0_mult1_dvd : ∀ k0_t1 : Fin k0_t1_loop.trips, 16000 ∣ (k0_mult1 k0_t1).toNat
  k0_off1_inb : ∀ k0_t1 : Fin k0_t1_loop.trips, ∀ a, (k0_off1 k0_t1) a + S1x16000.size a ≤ S3x400000.size a
  k0_off2_inb : ∀ k0_t1 : Fin k0_t1_loop.trips, ∀ a, (k0_off2 k0_t1) a + S1x16000.size a ≤ S3x400000.size a
  k0_off3_inb : ∀ k0_t1 : Fin k0_t1_loop.trips, ∀ a, (k0_off3 k0_t1) a + S1x16000.size a ≤ S3x400000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x400000.size a ≤ S3x20000000.size a
  hwx0_0 : ∀ i : grid0.Coords, EltTy.bits .f32 = 32 ∨ (Rect.block (s := S3x20000000) S3x400000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x48x32.size a ≤ S2x48x32.size a
  hwx0_1 : ∀ i : grid0.Coords, EltTy.bits .f32 = 32 ∨ (Rect.block (s := S2x48x32) S1x48x32.size (cc0_transform_1 i) (hinb0_1 i)).WholeWords (EltTy.packing .f32)

variable [Facts₀]

def dot_S48x16000_S32x16000_S48x32_1_1_0_0_n_n : DotDims S48x16000 S32x16000 S48x32 where
  lhsContracting := [1]
  rhsContracting := [1]
  lhsNonContracting := [0]
  rhsNonContracting := [0]
  lhsBatch := []
  rhsBatch := []
  wf := dot_S48x16000_S32x16000_S48x32_1_1_0_0_n_n_wf

abbrev win0_0 : Pipeline.Window sig grid0 :=
  Pipeline.Window.ofSpec (Memref.whole main_v9) S3x400000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x48x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S20000000x4 : Shape := ⟨2, ![20000000, 4]⟩
abbrev S20000000x1 : Shape := ⟨2, ![20000000, 1]⟩
abbrev S20000000 : Shape := ⟨1, ![20000000]⟩
abbrev S_ : Shape := ⟨0, ![]⟩
abbrev S1536 : Shape := ⟨1, ![1536]⟩
abbrev S2x24x32 : Shape := ⟨3, ![2, 24, 32]⟩

abbrev nBuf : Space → Nat
  | .hbm => 69
  | .vmem => 0
  | .smem => 0
  | _ => 0

abbrev bufTy : (tb : Table) → Fin (tcTables nBuf tb) → BufTy
  | .hbm, ⟨0, _⟩ => ⟨S20000000x4, .f32⟩
  | .hbm, ⟨1, _⟩ => ⟨S20000000x1, .f32⟩
  | .hbm, ⟨2, _⟩ => ⟨S20000000, .f32⟩
  | .hbm, ⟨3, _⟩ => ⟨S_, .f32⟩
  | .hbm, ⟨4, _⟩ => ⟨S20000000, .f32⟩
  | .hbm, ⟨5, _⟩ => ⟨S20000000, .f32⟩
  | .hbm, ⟨6, _⟩ => ⟨S20000000, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S20000000, .i32⟩
  | .hbm, ⟨11, _⟩ => ⟨S20000000, .i32⟩
  | .hbm, ⟨12, _⟩ => ⟨S_, .i32⟩
  | .hbm, ⟨13, _⟩ => ⟨S20000000, .i32⟩
  | .hbm, ⟨14, _⟩ => ⟨S20000000, .i32⟩
  | .hbm, ⟨15, _⟩ => ⟨S20000000x1, .f32⟩
  | .hbm, ⟨16, _⟩ => ⟨S20000000, .f32⟩
  | .hbm, ⟨17, _⟩ => ⟨S_, .f32⟩
  | .hbm, ⟨18, _⟩ => ⟨S20000000, .f32⟩
  | .hbm, ⟨19, _⟩ => ⟨S20000000, .f32⟩
  | .hbm, ⟨20, _⟩ => ⟨S20000000, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S20000000, .i32⟩
  | .hbm, ⟨25, _⟩ => ⟨S20000000, .i32⟩
  | .hbm, ⟨26, _⟩ => ⟨S_, .i32⟩
  | .hbm, ⟨27, _⟩ => ⟨S20000000, .i32⟩
  | .hbm, ⟨28, _⟩ => ⟨S20000000, .i32⟩
  | .hbm, ⟨29, _⟩ => ⟨S20000000x1, .f32⟩
  | .hbm, ⟨30, _⟩ => ⟨S20000000, .f32⟩
  | .hbm, ⟨31, _⟩ => ⟨S_, .f32⟩
  | .hbm, ⟨32, _⟩ => ⟨S20000000, .f32⟩
  | .hbm, ⟨33, _⟩ => ⟨S20000000, .i1⟩
  | .hbm, ⟨34, _⟩ => ⟨S_, .i32⟩
  | .hbm, ⟨35, _⟩ => ⟨S_, .i32⟩
  | .hbm, ⟨36, _⟩ => ⟨S20000000, .i32⟩
  | .hbm, ⟨37, _⟩ => ⟨S20000000, .i32⟩
  | .hbm, ⟨38, _⟩ => ⟨S20000000, .i32⟩
  | .hbm, ⟨39, _⟩ => ⟨S20000000, .i32⟩
  | .hbm, ⟨40, _⟩ => ⟨S_, .i32⟩
  | .hbm, ⟨41, _⟩ => ⟨S20000000, .i32⟩
  | .hbm, ⟨42, _⟩ => ⟨S20000000, .i32⟩
  | .hbm, ⟨43, _⟩ => ⟨S_, .i32⟩
  | .hbm, ⟨44, _⟩ => ⟨S20000000, .i32⟩
  | .hbm, ⟨45, _⟩ => ⟨S20000000, .i32⟩
  | .hbm, ⟨46, _⟩ => ⟨S20000000, .i32⟩
  | .hbm, ⟨47, _⟩ => ⟨S20000000, .i32⟩
  | .hbm, ⟨48, _⟩ => ⟨S_, .f32⟩
  | .hbm, ⟨49, _⟩ => ⟨S1536, .f32⟩
  | .hbm, ⟨50, _⟩ => ⟨S_, .i32⟩
  | .hbm, ⟨51, _⟩ => ⟨S20000000, .i32⟩
  | .hbm, ⟨52, _⟩ => ⟨S20000000, .i1⟩
  | .hbm, ⟨53, _⟩ => ⟨S_, .i32⟩
  | .hbm, ⟨54, _⟩ => ⟨S20000000, .i32⟩
  | .hbm, ⟨55, _⟩ => ⟨S20000000, .i32⟩
  | .hbm, ⟨56, _⟩ => ⟨S20000000, .i32⟩
  | .hbm, ⟨57, _⟩ => ⟨S20000000x1, .i32⟩
  | .hbm, ⟨58, _⟩ => ⟨S_, .f32⟩
  | .hbm, ⟨59, _⟩ => ⟨S20000000, .f32⟩
  | .hbm, ⟨60, _⟩ => ⟨S1536, .f32⟩
  | .hbm, ⟨61, _⟩ => ⟨S2x24x32, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i1⟩
  | .hbm, ⟨66, _⟩ => ⟨S2x24x32, .f32⟩
  | .hbm, ⟨67, _⟩ => ⟨S2x24x32, .f32⟩
  | .hbm, ⟨68, _⟩ => ⟨S2x24x32, .f32⟩
  | _, _ => ⟨S20000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_c_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_c_6 : Ref sig .tc := ⟨.hbm, 35, rfl⟩
abbrev main_call2_v0 : Ref sig .tc := ⟨.hbm, 36, rfl⟩
abbrev main_call2_v1 : Ref sig .tc := ⟨.hbm, 37, rfl⟩
abbrev main_v16 : Ref sig .tc := ⟨.hbm, 38, rfl⟩
abbrev main_v17 : Ref sig .tc := ⟨.hbm, 39, rfl⟩
abbrev main_c_7 : Ref sig .tc := ⟨.hbm, 40, rfl⟩
abbrev main_v18 : Ref sig .tc := ⟨.hbm, 41, rfl⟩
abbrev main_v19 : Ref sig .tc := ⟨.hbm, 42, rfl⟩
abbrev main_c_8 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_9 : Ref sig .tc := ⟨.hbm, 48, rfl⟩
abbrev main_v24 : Ref sig .tc := ⟨.hbm, 49, rfl⟩
abbrev main_c_10 : Ref sig .tc := ⟨.hbm, 50, rfl⟩
abbrev main_v25 : Ref sig .tc := ⟨.hbm, 51, rfl⟩
abbrev main_v26 : Ref sig .tc := ⟨.hbm, 52, rfl⟩
abbrev main_c_11 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_12 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_13 : Ref sig .tc := ⟨.hbm, 62, rfl⟩
abbrev main_v34 : Ref sig .tc := ⟨.hbm, 63, rfl⟩
abbrev main_cst_14 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩

abbrev nD : Nat := 1
abbrev τ : Topo := Topo.v7x

variable {F : FTy → Type} [FloatOps F]

class Facts₀ : Prop where
  slices_S20000000x4_S20000000x1_0_0 : S20000000x4.Slices ![0, 0] S20000000x1
  shapeCasts_S20000000x1_S20000000 : S20000000x1.ShapeCasts S20000000
  bcast_S_S20000000 : S_.BroadcastsInDim S20000000 (![] : Fin 0 → Fin S20000000.rank)
  slices_S20000000x4_S20000000x1_0_1 : S20000000x4.Slices ![0, 1] S20000000x1
  slices_S20000000x4_S20000000x1_0_3 : S20000000x4.Slices ![0, 3] S20000000x1
  bcast_S_S1536 : S_.BroadcastsInDim S1536 (![] : Fin 0 → Fin S1536.rank)
  bcast_S20000000_S20000000x1_0 : S20000000.BroadcastsInDim S20000000x1 (![0] : Fin 1 → Fin S20000000x1.rank)
  shapeCasts_S1536_S2x24x32 : S1536.ShapeCasts S2x24x32
  reducesTo_S2x24x32_S_d0_1_2 : S2x24x32.ReducesTo [0, 1, 2] S_
  h_S_ : 0 < S_.numel
  bcast_S_S2x24x32 : S_.BroadcastsInDim S2x24x32 (![] : Fin 0 → Fin S2x24x32.rank)
  scatter_S1536_S20000000x1_S20000000_n_0_0_1_wf : ScatterDims.WF S1536 S20000000x1 S20000000 [] [0] [0] 1

variable [Facts₀]

def scatter_S1536_S20000000x1_S20000000_n_0_0_1 : ScatterDims S1536 S20000000x1 S20000000 where
  updateWindowDims := []
  insertedWindowDims := [0]
  scatterDimsToOperandDims := [0]
  indexVectorDim := 1
  wf := scatter_S1536_S20000000x1_S20000000_n_0_0_1_wf

class Facts : Prop extends Facts₀ where

variable [Facts]
-- ==== Proof.K.FrShared.lean ====
import proofs.«151864_j16578573762771_2_alg».proof.Proof.Gen.Kernel.Launch
import proofs.«151864_j16578573762771_2_alg».proof.Proof.Gen.Kernel.Skeleton
import proofs.«151864_j16578573762771_2_alg».proof.Proof.Gen.Kernel.Points
import proofs.«151864_j16578573762771_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

/-!
# The frame of the histogram kernel: what the three case runs share

The program stacks three columns of its argument into one array of shape 3 × 20000000 (ten host
operations, the last a concatenation), runs one pipelined kernel over a 2 × 25 grid, and finishes
with thirteen host operations on the kernel's result.  The kernel reads one 3 × 400000 block of the
stacked array per grid point, keeps a 48 × 32 accumulator in a scratch buffer across the 25 points of
a row of the grid (zeroed at the row's first point, increased by 25 matrix products at every point)
and copies the accumulator into the output block at the row's last point.

This module fixes the vocabulary the frame proof is stated in: the buffer contents at the moment the
region is entered (the host prefix folded over the launch memory and never unfolded), the two
branch conditions of the body in closed form over the grid, the points at which the output window
is idle, and the staging and scratch memrefs the body is called with.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the ten host operations before it folded
    over the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is its host prefix, then the region, then the three stretches of host operations
    after it: it reduces to the region continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The operations after the region touch only unscoped TensorCore buffers: the pipeline's arrays and
    the buffers that bypass the region. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And none writes an array of the pipeline: each writes its own result buffer only, and neither the
    stacked input nor the kernel's result is one of those. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes the program's argument (each writes its own result,
    and the argument is nobody's result): the region finds it as launched.  Proved from the operations'
    write sets; the fold itself is never evaluated. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any operation after the region, and the argument is no array of the pipeline: it ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every
    point, never cut and never idle), for any proof data whose array is the region-entry contents and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run that ends with every bypassing buffer as the operations after the region leave it ends with
    the program's argument as launched: the argument bypasses the region (the kernel stages the
    stacked copy, not the argument) and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's two conditions -/

/-- "This is the first point of a row of the grid": the body's first conditional, as the kernel
    computes it from the second grid coordinate. -/
abbrev cond0_0 (i : grid0.Coords) : Prop := (Scalar.cmpi .ne (Scalar.extui (Scalar.cmpi .eq (BitVec.ofNat 32 (i 1).val) 0#32)) 0#32) = 1#1
/-- It holds exactly at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- "This is the last point of a row": the body's second conditional. -/
abbrev cond0_1 (i : grid0.Coords) : Prop := k0_cond2 i = 1#1
/-- It holds exactly at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

/-- The input window is never idle. -/
theorem liveAt0_0 : ∀ t : Fin cfg0.N, cfg0.idle 0 (grid0.coords t) = false := by decide +kernel
/-- At a row's first point the output window is idle (the body stores nothing into it) -/
theorem idleAt0_1_A : ∀ t : Fin cfg0.N, cond0_0 (grid0.coords t) → ¬cond0_1 (grid0.coords t) → cfg0.idle 1 (grid0.coords t) = true := by decide +kernel
/-- and is not written back. -/
theorem noFlush0_1_A : ∀ t : Fin cfg0.N, cond0_0 (grid0.coords t) → ¬cond0_1 (grid0.coords t) → (cfg0.win 1).flush t = false := by decide +kernel
/-- The same at a row's inner points. -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- At a row's last point the output window is live: the body stores the accumulator into it. -/
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated (which of the two
    does not matter: what is read back over a covering list of stores depends on the stores only). -/
abbrev VO0_1 : View sig .tc .vmem S1x48x32 .f32 := (Memref.whole cc0_stg1_0 : Memref sig .tc .vmem S1x48x32 .f32).view
/-- Each window's current staging memref at point `t`, as the pipeline passes it, and its wholeness. -/
abbrev ms0_0 (t : Fin cfg0.N) : Memref sig .tc .vmem S3x400000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x48x32 .f32 := win0_1.stage (cfg0.slots t 1)
abbrev hs0_1 (t : Fin cfg0.N) : (ms0_1 t).IsWhole := hstage0_1 ((cfg0.slots t 1).cast nbuf0_1)
/-- The accumulator: a whole scoped buffer of the kernel's own, passed beside the windows. -/
abbrev scM0_0 : Memref sig .tc .vmem S48x32 .f32 := Memref.whole cc0_scratch0
/-- The same as a view: what the accumulator holds between points is stated through it. -/
abbrev VS0_0 : View sig .tc .vmem S48x32 .f32 := scM0_0.view

/-- What the launch hands the region besides the windows: the accumulator owned at some contents, and
    the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunB.lean ====
import proofs.«151864_j16578573762771_2_alg».proof.Proof.K.FrShared

/-!
# The body at an inner point of a row

Neither conditional is taken: the body only runs its loop, whose 25 trips each load the accumulator,
add one matrix product to it and store it back whole.  The accumulator comes in at the contents the
point before left and goes out with the loop's stores written over them; the output's staging buffer
is handed back untouched.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (none in the output's buffer; the loop's in the accumulator),
    with the proof that, on whole memrefs holding the input block `x0`, any output contents `xi1` and
    the accumulator `xs0`, the body runs to a continuation that gets the input and the output back as
    they were and the accumulator with those pieces written. -/
noncomputable def kernelRun0_B (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : ¬cond0_1 i)
    (x0 : Vec F S3x400000 .f32) (xs0 : Vec F S48x32 .f32) :
    Σ' (L1 : List (View.Piece (Elt F) S1x48x32 .f32)), { LS0 : List (View.Piece (Elt F) S48x32 .f32) //
      ∀ (xi1 : Vec F S1x48x32 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.K.RunA.lean ====
import proofs.«151864_j16578573762771_2_alg».proof.Proof.K.RunB

/-!
# The body at the first point of a row

The first conditional is taken, the second is not: the body stores zeros over the whole accumulator
and then runs its loop.  Whatever the accumulator held before is overwritten, so it may come in at
any contents; it goes out with the zero fill and the loop's stores written.  The output's staging
buffer is handed back untouched.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (none in the output's buffer; the zero fill and then the loop's
    in the accumulator), with the proof that, on whole memrefs holding the input block `x0`, any output
    contents `xi1` and an accumulator at anything, the body runs to a continuation that gets the input
    and the output back as they were and the accumulator with those pieces written. -/
noncomputable def kernelRun0_A (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : cond0_0 i) (hc1 : ¬cond0_1 i)
    (x0 : Vec F S3x400000 .f32) :
    Σ' (L1 : List (View.Piece (Elt F) S1x48x32 .f32)), { LS0 : List (View.Piece (Elt F) S48x32 .f32) //
      ∀ (xi1 : Vec F S1x48x32 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.K.RunC.lean ====
import proofs.«151864_j16578573762771_2_alg».proof.Proof.K.RunA

/-!
# The body at the last point of a row

The first conditional is not taken, the second is: the body runs its loop and then copies the
accumulator whole into the output's staging buffer.  The accumulator comes in at the contents the
point before left; the output's buffer may come in at anything, since the copy overwrites all of it.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (the copy of the accumulator in the output's buffer; the loop's
    in the accumulator), with the proof that, on whole memrefs holding the input block `x0`, an output
    buffer at anything and the accumulator `xs0`, the body runs to a continuation that gets the input
    back as it was and the two others with those pieces written. -/
noncomputable def kernelRun0_C (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : cond0_1 i)
    (x0 : Vec F S3x400000 .f32) (xs0 : Vec F S48x32 .f32) :
    Σ' (L1 : List (View.Piece (Elt F) S1x48x32 .f32)), { LS0 : List (View.Piece (Elt F) S48x32 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Fr

end
-- ==== Proof.K.Frame.lean ====
import proofs.«151864_j16578573762771_2_alg».proof.Proof.K.RunC

/-!
# The frame of the histogram kernel

The three case runs say what one call of the body leaves in the accumulator and in the output's
staging buffer, as lists of stores.  Here those lists are read back as contents: every list that is
consulted ends in a store of the whole buffer, so it covers the buffer and what it leaves does not
depend on what was there before.  Point by point along the grid this gives the accumulator's contents
after each point (`outsAt0`): zero plus the first point's 25 products, then each inner point's 25
products added, and at a row's last point the same once more, copied into the output block.

With these contents as the pipeline's proof data the body obligation holds at every point (by cases on
the point's residue modulo 25), the region runs to its end, the thirteen host operations after it run
on what it left, and the program's argument — which the kernel never stages and no host operation
writes — ends as it was launched.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a row's first point nothing is stored into the output's buffer; the window is idle and not
    written back there, so this value (no stores, read back over unspecified contents) is never used. -/
def out0_A_1 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : cond0_0 i) (hc1 : ¬cond0_1 i)
    (x0 : Vec F S3x400000 .f32) : Vec F S1x48x32 .f32 :=
  VO0_1.read (Elt F) (VO0_1.writes (Elt F) VO0_1.junk (kernelRun0_A c i arg2 harg2 arg3 harg3 arg4 harg4 hc0 hc1 x0).1)

/-- The first point's stores into the accumulator cover it: each is a store of the whole buffer. -/
theorem scover0_A_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : cond0_0 i) (hc1 : ¬cond0_1 i)
    (x0 : Vec F S3x400000 .f32) (y : S48x32.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S48x32.size (by sl_kernel_rfl) y

/-- What the first point leaves in the accumulator. -/
def sout0_A_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : cond0_0 i) (hc1 : ¬cond0_1 i)
    (x0 : Vec F S3x400000 .f32) : Vec F S48x32 .f32 :=
  VS0_0.read (Elt F) (VS0_0.writes (Elt F) VS0_0.junk (kernelRun0_A c i arg2 harg2 arg3 harg3 arg4 harg4 hc0 hc1 x0).2.1)

/-- At an inner point nothing is stored into the output's buffer either (idle, not written back). -/
def out0_B_1 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : ¬cond0_1 i)
    (x0 : Vec F S3x400000 .f32) (xs0 : Vec F S48x32 .f32) : Vec F S1x48x32 .f32 :=
  VO0_1.read (Elt F) (VO0_1.writes (Elt F) VO0_1.junk (kernelRun0_B c i arg2 harg2 arg3 harg3 arg4 harg4 hc0 hc1 x0 xs0).1)

/-- An inner point's stores into the accumulator cover it. -/
theorem scover0_B_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : ¬cond0_1 i)
    (x0 : Vec F S3x400000 .f32) (xs0 : Vec F S48x32 .f32) (y : S48x32.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S48x32.size (by sl_kernel_rfl) y

/-- What an inner point leaves in the accumulator, from what it found there (`xs0`). -/
def sout0_B_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : ¬cond0_1 i)
    (x0 : Vec F S3x400000 .f32) (xs0 : Vec F S48x32 .f32) : Vec F S48x32 .f32 :=
  VS0_0.read (Elt F) (VS0_0.writes (Elt F) VS0_0.junk (kernelRun0_B c i arg2 harg2 arg3 harg3 arg4 harg4 hc0 hc1 x0 xs0).2.1)

/-- At a row's last point the one store into the output's buffer is of the whole block. -/
theorem cover0_C_1 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : cond0_1 i)
    (x0 : Vec F S3x400000 .f32) (xs0 : Vec F S48x32 .f32) (y : S1x48x32.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x48x32.size (by sl_kernel_rfl) y

/-- What the last point leaves in the output's buffer: the accumulator, reshaped. -/
def out0_C_1 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : cond0_1 i)
    (x0 : Vec F S3x400000 .f32) (xs0 : Vec F S48x32 .f32) : Vec F S1x48x32 .f32 :=
  VO0_1.read (Elt F) (VO0_1.writes (Elt F) VO0_1.junk (kernelRun0_C c i arg2 harg2 arg3 harg3 arg4 harg4 hc0 hc1 x0 xs0).1)

/-- The last point's stores into the accumulator cover it. -/
theorem scover0_C_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : cond0_1 i)
    (x0 : Vec F S3x400000 .f32) (xs0 : Vec F S48x32 .f32) (y : S48x32.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S48x32.size (by sl_kernel_rfl) y

/-- What the last point leaves in the accumulator. -/
def sout0_C_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : cond0_1 i)
    (x0 : Vec F S3x400000 .f32) (xs0 : Vec F S48x32 .f32) : Vec F S48x32 .f32 :=
  VS0_0.read (Elt F) (VS0_0.writes (Elt F) VS0_0.junk (kernelRun0_C c i arg2 harg2 arg3 harg3 arg4 harg4 hc0 hc1 x0 xs0).2.1)

/-! ## What the output's buffer and the accumulator hold after each point -/

/-- After the body at position `n`: the pair (output's staging buffer, accumulator).  The residue of `n`
    modulo 25 selects the case; the case is run at the point's memrefs and input block, and, except at a
    row's first point, over the accumulator the point before left.  No point is both first and last of
    its row. -/
def outsAt0 (c : Dev nD) : (n : ℕ) → n < cfg0.N → Vec F S1x48x32 .f32 × Vec F S48x32 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 25 = 0 then
      if h1 : (n + 1) % 25 = 24 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 25 = 24 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- `outsAt0` at a row's first point. -/
theorem outsAt0_A (c : Dev nD) (t : Fin cfg0.N) (h0 : t.val % 25 = 0) (h1 : ¬t.val % 25 = 24) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at an inner point: the case's contents over what the point before left. -/
theorem outsAt0_B (c : Dev nD) (t : Fin cfg0.N) (h0 : ¬t.val % 25 = 0) (h1 : ¬t.val % 25 = 24) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a row's last point: the case's contents over what the point before left. -/
theorem outsAt0_C (c : Dev nD) (t : Fin cfg0.N) (h0 : ¬t.val % 25 = 0) (h1 : t.val % 25 = 24) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point, what the launch hands over (the
    accumulator at anything); afterwards the accumulator at what the point before left, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body at point `t` the input's buffer at its
    block and the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

/-- The proof data's arrays are the region-entry contents (by projecting the definition; the fold over
    the host prefix stays folded). -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point.  The input's memref holds its block; the point's residue modulo 25 says which
    case it is in, and that case's run applies: the invariant hands over the accumulator (at anything at
    the very first point, at what the point before left otherwise) and takes it back at this point's
    contents, which the case's stores determine because they cover the buffer.  Where the output window
    is idle its buffer is handed back as it came; at a row's last point it is handed back at the covering
    store's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 25 = 0
  · by_cases h1 : t.val % 25 = 24
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 25 = 24
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- In particular after the last point. -/
theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- From any memory with zero counters, every weakly fair execution of the program on the TensorCores
    terminates, and every final state has each array of the pipeline at what the proof data computes
    and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The program runs to its end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Fr

end
-- ==== Proof.KI.FrShared.lean ====
import proofs.«151864_j16578573762771_2_alg».proof.Proof.Gen.KernelIdeal.Launch
import proofs.«151864_j16578573762771_2_alg».proof.Proof.Gen.KernelIdeal.Skeleton
import proofs.«151864_j16578573762771_2_alg».proof.Proof.Gen.KernelIdeal.Points
import proofs.«151864_j16578573762771_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

/-!
# The frame of the histogram kernel: what the three case runs share

The program stacks three columns of its argument into one array of shape 3 × 20000000 (ten host
operations, the last a concatenation), runs one pipelined kernel over a 2 × 25 grid, and finishes
with thirteen host operations on the kernel's result.  The kernel reads one 3 × 400000 block of the
stacked array per grid point, keeps a 48 × 32 accumulator in a scratch buffer across the 25 points of
a row of the grid (zeroed at the row's first point, increased by 25 matrix products at every point)
and copies the accumulator into the output block at the row's last point.

This module fixes the vocabulary the frame proof is stated in: the buffer contents at the moment the
region is entered (the host prefix folded over the launch memory and never unfolded), the two
branch conditions of the body in closed form over the grid, the points at which the output window
is idle, and the staging and scratch memrefs the body is called with.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the ten host operations before it folded
    over the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is its host prefix, then the region, then the three stretches of host operations
    after it: it reduces to the region continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The operations after the region touch only unscoped TensorCore buffers: the pipeline's arrays and
    the buffers that bypass the region. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And none writes an array of the pipeline: each writes its own result buffer only, and neither the
    stacked input nor the kernel's result is one of those. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes the program's argument (each writes its own result,
    and the argument is nobody's result): the region finds it as launched.  Proved from the operations'
    write sets; the fold itself is never evaluated. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any operation after the region, and the argument is no array of the pipeline: it ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every
    point, never cut and never idle), for any proof data whose array is the region-entry contents and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run that ends with every bypassing buffer as the operations after the region leave it ends with
    the program's argument as launched: the argument bypasses the region (the kernel stages the
    stacked copy, not the argument) and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's two conditions -/

/-- "This is the first point of a row of the grid": the body's first conditional, as the kernel
    computes it from the second grid coordinate. -/
abbrev cond0_0 (i : grid0.Coords) : Prop := (Scalar.cmpi .ne (Scalar.extui (Scalar.cmpi .eq (BitVec.ofNat 32 (i 1).val) 0#32)) 0#32) = 1#1
/-- It holds exactly at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- "This is the last point of a row": the body's second conditional. -/
abbrev cond0_1 (i : grid0.Coords) : Prop := k0_cond2 i = 1#1
/-- It holds exactly at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

/-- The input window is never idle. -/
theorem liveAt0_0 : ∀ t : Fin cfg0.N, cfg0.idle 0 (grid0.coords t) = false := by decide +kernel
/-- At a row's first point the output window is idle (the body stores nothing into it) -/
theorem idleAt0_1_A : ∀ t : Fin cfg0.N, cond0_0 (grid0.coords t) → ¬cond0_1 (grid0.coords t) → cfg0.idle 1 (grid0.coords t) = true := by decide +kernel
/-- and is not written back. -/
theorem noFlush0_1_A : ∀ t : Fin cfg0.N, cond0_0 (grid0.coords t) → ¬cond0_1 (grid0.coords t) → (cfg0.win 1).flush t = false := by decide +kernel
/-- The same at a row's inner points. -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- At a row's last point the output window is live: the body stores the accumulator into it. -/
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated (which of the two
    does not matter: what is read back over a covering list of stores depends on the stores only). -/
abbrev VO0_1 : View sig .tc .vmem S1x48x32 .f32 := (Memref.whole cc0_stg1_0 : Memref sig .tc .vmem S1x48x32 .f32).view
/-- Each window's current staging memref at point `t`, as the pipeline passes it, and its wholeness. -/
abbrev ms0_0 (t : Fin cfg0.N) : Memref sig .tc .vmem S3x400000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x48x32 .f32 := win0_1.stage (cfg0.slots t 1)
abbrev hs0_1 (t : Fin cfg0.N) : (ms0_1 t).IsWhole := hstage0_1 ((cfg0.slots t 1).cast nbuf0_1)
/-- The accumulator: a whole scoped buffer of the kernel's own, passed beside the windows. -/
abbrev scM0_0 : Memref sig .tc .vmem S48x32 .f32 := Memref.whole cc0_scratch0
/-- The same as a view: what the accumulator holds between points is stated through it. -/
abbrev VS0_0 : View sig .tc .vmem S48x32 .f32 := scM0_0.view

/-- What the launch hands the region besides the windows: the accumulator owned at some contents, and
    the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunB.lean ====
import proofs.«151864_j16578573762771_2_alg».proof.Proof.KI.FrShared

/-!
# The body at an inner point of a row

Neither conditional is taken: the body only runs its loop, whose 25 trips each load the accumulator,
add one matrix product to it and store it back whole.  The accumulator comes in at the contents the
point before left and goes out with the loop's stores written over them; the output's staging buffer
is handed back untouched.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (none in the output's buffer; the loop's in the accumulator),
    with the proof that, on whole memrefs holding the input block `x0`, any output contents `xi1` and
    the accumulator `xs0`, the body runs to a continuation that gets the input and the output back as
    they were and the accumulator with those pieces written. -/
noncomputable def kernelRun0_B (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : ¬cond0_1 i)
    (x0 : Vec F S3x400000 .f32) (xs0 : Vec F S48x32 .f32) :
    Σ' (L1 : List (View.Piece (Elt F) S1x48x32 .f32)), { LS0 : List (View.Piece (Elt F) S48x32 .f32) //
      ∀ (xi1 : Vec F S1x48x32 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KI.RunA.lean ====
import proofs.«151864_j16578573762771_2_alg».proof.Proof.KI.RunB

/-!
# The body at the first point of a row

The first conditional is taken, the second is not: the body stores zeros over the whole accumulator
and then runs its loop.  Whatever the accumulator held before is overwritten, so it may come in at
any contents; it goes out with the zero fill and the loop's stores written.  The output's staging
buffer is handed back untouched.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (none in the output's buffer; the zero fill and then the loop's
    in the accumulator), with the proof that, on whole memrefs holding the input block `x0`, any output
    contents `xi1` and an accumulator at anything, the body runs to a continuation that gets the input
    and the output back as they were and the accumulator with those pieces written. -/
noncomputable def kernelRun0_A (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : cond0_0 i) (hc1 : ¬cond0_1 i)
    (x0 : Vec F S3x400000 .f32) :
    Σ' (L1 : List (View.Piece (Elt F) S1x48x32 .f32)), { LS0 : List (View.Piece (Elt F) S48x32 .f32) //
      ∀ (xi1 : Vec F S1x48x32 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KI.RunC.lean ====
import proofs.«151864_j16578573762771_2_alg».proof.Proof.KI.RunA

/-!
# The body at the last point of a row

The first conditional is not taken, the second is: the body runs its loop and then copies the
accumulator whole into the output's staging buffer.  The accumulator comes in at the contents the
point before left; the output's buffer may come in at anything, since the copy overwrites all of it.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (the copy of the accumulator in the output's buffer; the loop's
    in the accumulator), with the proof that, on whole memrefs holding the input block `x0`, an output
    buffer at anything and the accumulator `xs0`, the body runs to a continuation that gets the input
    back as it was and the two others with those pieces written. -/
noncomputable def kernelRun0_C (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : cond0_1 i)
    (x0 : Vec F S3x400000 .f32) (xs0 : Vec F S48x32 .f32) :
    Σ' (L1 : List (View.Piece (Elt F) S1x48x32 .f32)), { LS0 : List (View.Piece (Elt F) S48x32 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Fr

end
-- ==== Proof.KI.Frame.lean ====
import proofs.«151864_j16578573762771_2_alg».proof.Proof.KI.RunC

/-!
# The frame of the histogram kernel

The three case runs say what one call of the body leaves in the accumulator and in the output's
staging buffer, as lists of stores.  Here those lists are read back as contents: every list that is
consulted ends in a store of the whole buffer, so it covers the buffer and what it leaves does not
depend on what was there before.  Point by point along the grid this gives the accumulator's contents
after each point (`outsAt0`): zero plus the first point's 25 products, then each inner point's 25
products added, and at a row's last point the same once more, copied into the output block.

With these contents as the pipeline's proof data the body obligation holds at every point (by cases on
the point's residue modulo 25), the region runs to its end, the thirteen host operations after it run
on what it left, and the program's argument — which the kernel never stages and no host operation
writes — ends as it was launched.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a row's first point nothing is stored into the output's buffer; the window is idle and not
    written back there, so this value (no stores, read back over unspecified contents) is never used. -/
def out0_A_1 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : cond0_0 i) (hc1 : ¬cond0_1 i)
    (x0 : Vec F S3x400000 .f32) : Vec F S1x48x32 .f32 :=
  VO0_1.read (Elt F) (VO0_1.writes (Elt F) VO0_1.junk (kernelRun0_A c i arg2 harg2 arg3 harg3 arg4 harg4 hc0 hc1 x0).1)

/-- The first point's stores into the accumulator cover it: each is a store of the whole buffer. -/
theorem scover0_A_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : cond0_0 i) (hc1 : ¬cond0_1 i)
    (x0 : Vec F S3x400000 .f32) (y : S48x32.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S48x32.size (by sl_kernel_rfl) y

/-- What the first point leaves in the accumulator. -/
def sout0_A_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : cond0_0 i) (hc1 : ¬cond0_1 i)
    (x0 : Vec F S3x400000 .f32) : Vec F S48x32 .f32 :=
  VS0_0.read (Elt F) (VS0_0.writes (Elt F) VS0_0.junk (kernelRun0_A c i arg2 harg2 arg3 harg3 arg4 harg4 hc0 hc1 x0).2.1)

/-- At an inner point nothing is stored into the output's buffer either (idle, not written back). -/
def out0_B_1 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : ¬cond0_1 i)
    (x0 : Vec F S3x400000 .f32) (xs0 : Vec F S48x32 .f32) : Vec F S1x48x32 .f32 :=
  VO0_1.read (Elt F) (VO0_1.writes (Elt F) VO0_1.junk (kernelRun0_B c i arg2 harg2 arg3 harg3 arg4 harg4 hc0 hc1 x0 xs0).1)

/-- An inner point's stores into the accumulator cover it. -/
theorem scover0_B_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : ¬cond0_1 i)
    (x0 : Vec F S3x400000 .f32) (xs0 : Vec F S48x32 .f32) (y : S48x32.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S48x32.size (by sl_kernel_rfl) y

/-- What an inner point leaves in the accumulator, from what it found there (`xs0`). -/
def sout0_B_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : ¬cond0_1 i)
    (x0 : Vec F S3x400000 .f32) (xs0 : Vec F S48x32 .f32) : Vec F S48x32 .f32 :=
  VS0_0.read (Elt F) (VS0_0.writes (Elt F) VS0_0.junk (kernelRun0_B c i arg2 harg2 arg3 harg3 arg4 harg4 hc0 hc1 x0 xs0).2.1)

/-- At a row's last point the one store into the output's buffer is of the whole block. -/
theorem cover0_C_1 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : cond0_1 i)
    (x0 : Vec F S3x400000 .f32) (xs0 : Vec F S48x32 .f32) (y : S1x48x32.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x48x32.size (by sl_kernel_rfl) y

/-- What the last point leaves in the output's buffer: the accumulator, reshaped. -/
def out0_C_1 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : cond0_1 i)
    (x0 : Vec F S3x400000 .f32) (xs0 : Vec F S48x32 .f32) : Vec F S1x48x32 .f32 :=
  VO0_1.read (Elt F) (VO0_1.writes (Elt F) VO0_1.junk (kernelRun0_C c i arg2 harg2 arg3 harg3 arg4 harg4 hc0 hc1 x0 xs0).1)

/-- The last point's stores into the accumulator cover it. -/
theorem scover0_C_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : cond0_1 i)
    (x0 : Vec F S3x400000 .f32) (xs0 : Vec F S48x32 .f32) (y : S48x32.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S48x32.size (by sl_kernel_rfl) y

/-- What the last point leaves in the accumulator. -/
def sout0_C_0 (c : Dev nD) (i : grid0.Coords) (arg2 : Memref sig .tc .vmem S3x400000 .f32) (harg2 : arg2.IsWhole) (arg3 : Memref sig .tc .vmem S1x48x32 .f32) (harg3 : arg3.IsWhole) (arg4 : Memref sig .tc .vmem S48x32 .f32) (harg4 : arg4.IsWhole) (hc0 : ¬cond0_0 i) (hc1 : cond0_1 i)
    (x0 : Vec F S3x400000 .f32) (xs0 : Vec F S48x32 .f32) : Vec F S48x32 .f32 :=
  VS0_0.read (Elt F) (VS0_0.writes (Elt F) VS0_0.junk (kernelRun0_C c i arg2 harg2 arg3 harg3 arg4 harg4 hc0 hc1 x0 xs0).2.1)

/-! ## What the output's buffer and the accumulator hold after each point -/

/-- After the body at position `n`: the pair (output's staging buffer, accumulator).  The residue of `n`
    modulo 25 selects the case; the case is run at the point's memrefs and input block, and, except at a
    row's first point, over the accumulator the point before left.  No point is both first and last of
    its row. -/
def outsAt0 (c : Dev nD) : (n : ℕ) → n < cfg0.N → Vec F S1x48x32 .f32 × Vec F S48x32 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 25 = 0 then
      if h1 : (n + 1) % 25 = 24 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 25 = 24 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- `outsAt0` at a row's first point. -/
theorem outsAt0_A (c : Dev nD) (t : Fin cfg0.N) (h0 : t.val % 25 = 0) (h1 : ¬t.val % 25 = 24) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at an inner point: the case's contents over what the point before left. -/
theorem outsAt0_B (c : Dev nD) (t : Fin cfg0.N) (h0 : ¬t.val % 25 = 0) (h1 : ¬t.val % 25 = 24) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a row's last point: the case's contents over what the point before left. -/
theorem outsAt0_C (c : Dev nD) (t : Fin cfg0.N) (h0 : ¬t.val % 25 = 0) (h1 : t.val % 25 = 24) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point, what the launch hands over (the
    accumulator at anything); afterwards the accumulator at what the point before left, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body at point `t` the input's buffer at its
    block and the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

/-- The proof data's arrays are the region-entry contents (by projecting the definition; the fold over
    the host prefix stays folded). -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point.  The input's memref holds its block; the point's residue modulo 25 says which
    case it is in, and that case's run applies: the invariant hands over the accumulator (at anything at
    the very first point, at what the point before left otherwise) and takes it back at this point's
    contents, which the case's stores determine because they cover the buffer.  Where the output window
    is idle its buffer is handed back as it came; at a row's last point it is handed back at the covering
    store's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 25 = 0
  · by_cases h1 : t.val % 25 = 24
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 25 = 24
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- In particular after the last point. -/
theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- From any memory with zero counters, every weakly fair execution of the program on the TensorCores
    terminates, and every final state has each array of the pipeline at what the proof data computes
    and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The program runs to its end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Fr

end
-- ==== Proof.KI.LoopVal.lean ====
/-
  The accumulation loop of the histogram kernel, read as a recurrence on the accumulator's contents.

  One trip takes the 16000 events of its chunk — three rows of the event block, at the trip's column offset — forms the
  48 × 16000 table "event k has pair h" and the 32 × 16000 table "event k has column bin l", contracts them over the
  events, and adds the 48 × 32 product to the accumulator, which it stores back whole. So the accumulator after k trips
  is the k-fold iterate of one step from the contents the loop started with; the pieces the trips write, read back, are
  exactly that iterate, because each trip's one store covers the whole accumulator.
-/
import proofs.«151864_j16578573762771_2_alg».proof.Proof.Gen.KernelIdeal.Loops
import Idealize.ShloMosaic.Lib.Pipeline.Frame
import Idealize.ShloMosaic.Lib.Pipeline.FrameBody
import Idealize.ShloMosaic.Lib.Pipeline.Value

noncomputable section

namespace Cert.KernelIdeal.Val

open Cert.KernelIdeal Cert.KernelIdeal.Gen
open Idealize.ShloMosaic Idealize.ShloMosaic.TcCoe Idealize.ShloMosaic.Tactic
open Idealize.SL Idealize.SL.Sem

variable {F : FTy → Type} [FloatOps F]

/-- The whole-buffer rectangle's offsets are zero. -/
theorem off00 : (![0, 0] : Fin 2 → Nat) = fun _ => 0 := by
  funext a; fin_cases a <;> rfl

/-- One trip's step on the accumulator `a`, from the event block `x0` ([3, 400000]: rows x, y, polarity): the
    contraction of the trip's two indicator tables added to `a`. -/
def tripAcc (v3 : IVec S48x1 32) (v4 : IVec S32x1 32) (x0 : Vec F S3x400000 .f32) (k : Fin k0_t1_loop.trips)
    (a : Vec F S48x32 .f32) : Vec F S48x32 .f32 :=
  k0_pay2
    (k0_pay4 v3 (View.ld x0 (Rect.unit (s := S3x400000) (k0_off2 k) S1x16000.size (k0_off2_inb k)))
      (View.ld x0 (Rect.unit (s := S3x400000) (k0_off3 k) S1x16000.size (k0_off3_inb k))))
    (k0_pay5 (View.ld x0 (Rect.unit (s := S3x400000) (k0_off1 k) S1x16000.size (k0_off1_inb k))))
    (k0_pay6 v4) a

/-- The accumulator after `k` trips from the contents `g`. -/
def accAfter (v3 : IVec S48x1 32) (v4 : IVec S32x1 32) (x0 : Vec F S3x400000 .f32) (g : Vec F S48x32 .f32) :
    ℕ → Vec F S48x32 .f32
  | 0 => g
  | k + 1 => if h : k < k0_t1_loop.trips then tripAcc v3 v4 x0 ⟨k, h⟩ (accAfter v3 v4 x0 g k) else accAfter v3 v4 x0 g k

theorem accAfter_succ (v3 : IVec S48x1 32) (v4 : IVec S32x1 32) (x0 : Vec F S3x400000 .f32) (g : Vec F S48x32 .f32)
    (k : Fin k0_t1_loop.trips) :
    accAfter v3 v4 x0 g (k.val + 1) = tripAcc v3 v4 x0 k (accAfter v3 v4 x0 g k.val) := by
  rw [accAfter]; exact dif_pos k.isLt

/-- The one piece a trip writes: the whole accumulator, at the trip's step of what it found there. -/
theorem trip_piece (𝒱 : Variants) (c : Dev nD) (bd : Option 𝒱.V) (i : grid0.Coords)
    (arg2 : Memref sig .tc .vmem S3x400000 .f32) (harg2 : arg2.IsWhole) (arg3 : Memref sig .tc .vmem S1x48x32 .f32)
    (harg3 : arg3.IsWhole) (arg4 : Memref sig .tc .vmem S48x32 .f32) (harg4 : arg4.IsWhole) (v3 : IVec S48x1 32)
    (v4 : IVec S32x1 32) (x0 : Vec F S3x400000 .f32) (k : Fin k0_t1_loop.trips)
    (f : BufTy.Contents (Elt F) arg4.view.ty) :
    tripL_k0_t1 (F := F) 𝒱 c bd i arg2 harg2 arg3 harg3 arg4 harg4 v3 v4 (harg2.unread x0) k f
      = [⟨Rect.unit (s := S48x32) ![0, 0] S48x32.size inb_S48x32_S48x32_0_0,
          tripAcc v3 v4 x0 k (arg4.view.read (Elt F) f)⟩] := by
  unfold tripL_k0_t1
  unfold trip_k0_t1
  dsimp only
  unfold trip_k0_t1.sl.r trip_k0_t1.sl.r_1 tripAcc
  simp only [View.readAt_eq_ld, harg2.read_unread]
  rw [View.ld_unit_zero off00]

/-- The loop makes 25 trips. -/
theorem trips_eq : k0_t1_loop.trips = 25 := by decide +kernel

/-- The pieces of the first `j + 1` trips, written over ANY contents and read back, are trip `j`'s step of what the
    first `j` trips' pieces leave over `G`: the last trip's store covers the whole accumulator. -/
theorem read_pb_succ (𝒱 : Variants) (c : Dev nD) (bd : Option 𝒱.V) (i : grid0.Coords)
    (arg2 : Memref sig .tc .vmem S3x400000 .f32) (harg2 : arg2.IsWhole) (arg3 : Memref sig .tc .vmem S1x48x32 .f32)
    (harg3 : arg3.IsWhole) (arg4 : Memref sig .tc .vmem S48x32 .f32) (harg4 : arg4.IsWhole) (v3 : IVec S48x1 32)
    (v4 : IVec S32x1 32) (x0 : Vec F S3x400000 .f32) (G : BufTy.Contents (Elt F) arg4.view.ty)
    {sg : RefSig} {κ : Kind} {sp : Space} (w : View sg κ sp S48x32 .f32) (f : w.ty.Contents (Elt F))
    (j : Fin k0_t1_loop.trips) :
    w.read (Elt F) (w.writes (Elt F) f
        (pb_k0_t1 (F := F) 𝒱 c bd i arg2 harg2 arg3 harg3 arg4 harg4 v3 v4 (harg2.unread x0) G (j.val + 1)))
      = tripAcc v3 v4 x0 j (arg4.view.read (Elt F) (arg4.view.writes (Elt F) G
          (pb_k0_t1 (F := F) 𝒱 c bd i arg2 harg2 arg3 harg3 arg4 harg4 v3 v4 (harg2.unread x0) G j.val))) := by
  rw [pb_k0_t1_succ 𝒱 c bd i arg2 harg2 arg3 harg3 arg4 harg4 v3 v4 (harg2.unread x0) G j, trip_piece]
  rw [List.singleton_append, View.read_writes_eq_canon _ _ _ (fun y => ⟨_, List.mem_cons_self, View.mem_set_unit_zero off00 inb_S48x32_S48x32_0_0 y⟩),
    View.canon_cons_unit_zero off00]

/-- The pieces of the first `k` trips, written over `G` and read back, are the `k`-fold iterate of the step from what
    `G` reads as. -/
theorem read_pb (𝒱 : Variants) (c : Dev nD) (bd : Option 𝒱.V) (i : grid0.Coords)
    (arg2 : Memref sig .tc .vmem S3x400000 .f32) (harg2 : arg2.IsWhole) (arg3 : Memref sig .tc .vmem S1x48x32 .f32)
    (harg3 : arg3.IsWhole) (arg4 : Memref sig .tc .vmem S48x32 .f32) (harg4 : arg4.IsWhole) (v3 : IVec S48x1 32)
    (v4 : IVec S32x1 32) (x0 : Vec F S3x400000 .f32) (G : BufTy.Contents (Elt F) arg4.view.ty) :
    ∀ k : ℕ, k ≤ k0_t1_loop.trips →
      arg4.view.read (Elt F) (arg4.view.writes (Elt F) G
          (pb_k0_t1 (F := F) 𝒱 c bd i arg2 harg2 arg3 harg3 arg4 harg4 v3 v4 (harg2.unread x0) G k))
        = accAfter v3 v4 x0 (arg4.view.read (Elt F) G) k
  | 0, _ => rfl
  | k + 1, hk => by
    have ih := read_pb 𝒱 c bd i arg2 harg2 arg3 harg3 arg4 harg4 v3 v4 x0 G k (Nat.le_of_succ_le hk)
    rw [read_pb_succ 𝒱 c bd i arg2 harg2 arg3 harg3 arg4 harg4 v3 v4 x0 G arg4.view G ⟨k, hk⟩,
      accAfter_succ v3 v4 x0 _ ⟨k, hk⟩]
    exact congrArg _ ih

/-- The pieces of the first `k ≥ 1` trips, written over ANY contents of any view of the accumulator's shape and read
    back: the `k`-fold iterate from what `G` reads as. -/
theorem read_pb_any (𝒱 : Variants) (c : Dev nD) (bd : Option 𝒱.V) (i : grid0.Coords)
    (arg2 : Memref sig .tc .vmem S3x400000 .f32) (harg2 : arg2.IsWhole) (arg3 : Memref sig .tc .vmem S1x48x32 .f32)
    (harg3 : arg3.IsWhole) (arg4 : Memref sig .tc .vmem S48x32 .f32) (harg4 : arg4.IsWhole) (v3 : IVec S48x1 32)
    (v4 : IVec S32x1 32) (x0 : Vec F S3x400000 .f32) (G : BufTy.Contents (Elt F) arg4.view.ty)
    {sg : RefSig} {κ : Kind} {sp : Space} (w : View sg κ sp S48x32 .f32) (f : w.ty.Contents (Elt F))
    (k : ℕ) (hk : k ≤ k0_t1_loop.trips) (hpos : 0 < k) :
    w.read (Elt F) (w.writes (Elt F) f
        (pb_k0_t1 (F := F) 𝒱 c bd i arg2 harg2 arg3 harg3 arg4 harg4 v3 v4 (harg2.unread x0) G k))
      = accAfter v3 v4 x0 (arg4.view.read (Elt F) G) k := by
  obtain ⟨j, rfl⟩ := Nat.exists_eq_succ_of_ne_zero (Nat.pos_iff_ne_zero.mp hpos)
  refine (read_pb_succ 𝒱 c bd i arg2 harg2 arg3 harg3 arg4 harg4 v3 v4 x0 G w f ⟨j, hk⟩).trans ?_
  refine Eq.trans ?_ (accAfter_succ v3 v4 x0 _ ⟨j, hk⟩).symm
  exact congrArg _ (read_pb 𝒱 c bd i arg2 harg2 arg3 harg3 arg4 harg4 v3 v4 x0 G j (Nat.le_of_lt hk))

end Cert.KernelIdeal.Val

end
-- ==== Proof.Spec.lean ====
/-
  A histogram of events over a 2 × 24 × 32 grid of bins, normalised by the number of events, on the extended reals.

  An event is a row (x, y, t, polarity) of four numbers. Its column bin is the integer part of x · s clamped to
  [0, 31], its row bin the integer part of y · s clamped to [0, 23] (s the single-precision word nearest 1/20, read as
  the exact real it denotes), and its polarity channel is 0 where the polarity is positive and 1 otherwise; all three are
  32-bit words. Writing the pair (channel, row bin) as one number h = channel · 24 + row bin below 48, the count of a bin
  (h, l) is the number of events whose pair is h and whose column bin is l, a sum of ones and zeros over the events. The
  histogram is the count divided by the total count where that total is positive, and the count itself otherwise, laid
  out as [2, 24, 32]: channel p, row r and column l hold the bin (p · 24 + r, l).
  Nothing here mentions a program.
-/
import Idealize.ShloMosaic.PureOps.Ideal
import Idealize.ShloMosaic.Lib.ValueIdx

noncomputable section

namespace Cert.Hist

open Idealize.ShloMosaic Idealize.ShloMosaic.ValueIdx

/-- The events: 20000000 rows of four numbers. -/
abbrev SEv : Shape := ⟨2, ![20000000, 4]⟩
/-- The histogram: two channels of 24 × 32 bins. -/
abbrev SOut : Shape := ⟨3, ![2, 24, 32]⟩

/-- The bin width's reciprocal: the single-precision word nearest 1/20, as the real it denotes. -/
def scale : EReal := Ideal.ofBits .f32 0x3D4CCCCD#32
/-- The word of +0.0 (kept as a word: both programs compare and add the same word). -/
def zeroW : EReal := Ideal.ofBits .f32 0x00000000#32

/-- The bin of a coordinate `e` on an axis whose last bin is `top`: the integer part of `e · scale`, clamped to [0, top]. -/
def bin (top : BitVec 32) (e : EReal) : BitVec 32 :=
  IntOp.minsi top (IntOp.maxsi 0#32 (Ideal.fptosi 32 (e * scale)))

/-- The polarity channel of a polarity `e`: 0 where it is positive, 1 otherwise. -/
def chan (e : EReal) : BitVec 32 := Scalar.select (Ideal.cmp .ogt e zeroW) 0#32 1#32

/-- Event `n`'s column bin, row bin and channel. -/
def xw (ev : SEv.Idx → EReal) (n : Fin 20000000) : BitVec 32 := bin 31#32 (ev (ix2 n 0))
def yw (ev : SEv.Idx → EReal) (n : Fin 20000000) : BitVec 32 := bin 23#32 (ev (ix2 n 1))
def pw (ev : SEv.Idx → EReal) (n : Fin 20000000) : BitVec 32 := chan (ev (ix2 n 3))

/-- Event `n`'s (channel, row bin) pair as one word: channel · 24 + row bin. -/
def hw (ev : SEv.Idx → EReal) (n : Fin 20000000) : BitVec 32 :=
  IntOp.addi (IntOp.muli (pw ev n) 24#32) (yw ev n)

/-- Whether event `n` falls in bin (h, l), as 1 or 0. -/
def hit (ev : SEv.Idx → EReal) (h : Fin 48) (l : Fin 32) (n : Fin 20000000) : EReal :=
  if hw ev n = BitVec.ofNat 32 h.val ∧ xw ev n = BitVec.ofNat 32 l.val then 1 else 0

/-- The count of bin (h, l): the number of events falling in it. -/
def cnt (ev : SEv.Idx → EReal) (h : Fin 48) (l : Fin 32) : EReal := ∑ n : Fin 20000000, hit ev h l n

/-- The total of a table of counts, added to the word of zero. -/
def total (c : Fin 48 → Fin 32 → EReal) : EReal := zeroW + ∑ h : Fin 48, ∑ l : Fin 32, c h l

/-- The pair number of channel `p` and row `r`. -/
def pair (p : Fin 2) (r : Fin 24) : Fin 48 := ⟨p.val * 24 + r.val, by omega⟩

/-- One bin of the normalised histogram from a table of counts. -/
def norm (c : Fin 48 → Fin 32 → EReal) (h : Fin 48) (l : Fin 32) : EReal :=
  Scalar.select (Ideal.cmp .ogt (total c) zeroW) (Ideal.div (c h l) (total c)) (c h l)

/-- The normalised histogram of a table of counts, laid out [2, 24, 32]. -/
def histOf (c : Fin 48 → Fin 32 → EReal) : SOut.Idx → EReal :=
  fun i => norm c (pair (i 0) (i 1)) (i 2)

/-- The histogram of the events. -/
def hist (ev : SEv.Idx → EReal) : SOut.Idx → EReal := histOf (cnt ev)

end Cert.Hist

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.KI.TripIdeal.lean ====
/-
  One trip of the accumulation loop at the exact values: the contraction of the two indicator tables counts, for each bin
  (h, l), the events of the trip's chunk that fall in it.

  At exact values a word compared for equality, widened and converted to a float is 1 where the words are equal and 0
  where they are not; rounding that to half precision changes nothing. The product of the "pair is h" and "column bin is
  l" indicators of one event is the indicator of "falls in bin (h, l)", and the contraction over the chunk's 16000 events
  adds these up. So one trip adds to each accumulator entry the number of the chunk's events in its bin.
-/
import proofs.«151864_j16578573762771_2_alg».proof.Proof.KI.LoopVal
import proofs.«151864_j16578573762771_2_alg».proof.Proof.Spec
import proofs.«151864_j16578573762771_2_alg».proof.Proof.LibRowsByRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.Hist
open Idealize.ShloMosaic Idealize.ShloMosaic.TcCoe Idealize.ShloMosaic.ValueIdx

/-- 1 where a proposition holds, 0 where it does not. -/
def ind (p : Prop) [Decidable p] : EReal := if p then 1 else 0

/-- A word equality, widened to 32 bits and converted to a float, is the indicator of the equality. -/
theorem eq_word_float (a b : BitVec 32) :
    ((((IntOp.cmpi .eq a b).setWidth 32).toInt : ℝ) : EReal) = ind (a = b) := by
  unfold ind
  by_cases h : a = b
  · subst h
    rw [if_pos rfl]
    have : IntOp.cmpi .eq a a = 1#1 := by simp [IntOp.cmpi]
    rw [this]; norm_num
  · rw [if_neg h]
    have : IntOp.cmpi .eq a b = 0#1 := by
      show BitVec.ofBool (a == b) = 0#1
      rw [show (a == b) = false from beq_eq_false_iff_ne.mpr h]; rfl
    rw [this]; norm_num

/-- The product of two indicators is the indicator of the conjunction. -/
theorem ind_mul (p q : Prop) [Decidable p] [Decidable q] : ind p * ind q = ind (p ∧ q) := by
  unfold ind
  by_cases hp : p <;> by_cases hq : q <;> simp [hp, hq]

/-- A row of a block read through a one-row rectangle at column offset `o`: entry `q` is the block's entry `o + q` of
    that row. -/
theorem ld_row {Val : EltTy → Type} {e : EltTy} (x0 : S3x400000.Idx → Val e) (off : Fin 2 → ℕ)
    (inb : ∀ a, off a + S1x16000.size a ≤ S3x400000.size a) (r : Fin 3) (o : ℕ) (hoff : off = ![r.val, o])
    (q : Fin 16000) (ho : o + q.val < 400000) :
    View.ld x0 (Rect.unit (s := S3x400000) off S1x16000.size inb) (ix2 (0 : Fin 1) q) = x0 (ix2 r ⟨o + q.val, ho⟩) := by
  subst hoff
  refine congrArg x0 (funext fun a => Fin.ext ?_)
  match a with
  | ⟨0, _⟩ => show r.val + 1 * 0 = r.val; omega
  | ⟨1, _⟩ => show o + 1 * q.val = o + q.val; omega

/-- The (channel, row bin) pair word of an event from its polarity `p` and its y coordinate `y`. -/
def pairWord (p y : EReal) : BitVec 32 := IntOp.addi (IntOp.muli (chan p) 24#32) (bin 23#32 y)

/-- The "pair is h" table at (h, q): the indicator that event q's pair word is h. -/
theorem pay4_apply (v3 : IVec S48x1 32) (hv3 : ∀ h : Fin 48, v3 (ix2 h (0 : Fin 1)) = BitVec.ofNat 32 h.val)
    (yrow prow : Vec Ideal S1x16000 .f32) (h : Fin 48) (q : Fin 16000) :
    k0_pay4 (F := Ideal) v3 yrow prow (ix2 h q)
      = ind (pairWord (prow (ix2 (0 : Fin 1) q)) (yrow (ix2 (0 : Fin 1) q)) = BitVec.ofNat 32 h.val) := by
  unfold k0_pay4
  try dsimp only
  rw [shapeCast_self, shapeCast_self]
  refine Eq.trans ?_ (eq_word_float _ _)
  show ((((IntOp.cmpi .eq (broadcastTo S48x16000 _ broadcasts_S1x16000_S48x16000 (ix2 h q))
      (broadcastTo S48x16000 v3 broadcasts_S48x1_S48x16000 (ix2 h q))).setWidth 32).toInt : ℝ) : EReal) = _
  rw [broadcastTo_1b_ab_apply, broadcastTo_apply v3 broadcasts_S48x1_S48x16000 (ix2 h q) (ix2 h (0 : Fin 1)) (fun ax => by
    match ax with
    | ⟨0, _⟩ => rfl
    | ⟨1, _⟩ => rfl), hv3]
  rfl

/-- The column-bin table at (l, q): event q's column bin. -/
theorem pay5_apply (xrow : Vec Ideal S1x16000 .f32) (l : Fin 32) (q : Fin 16000) :
    k0_pay5 (F := Ideal) xrow (ix2 l q) = bin 31#32 (xrow (ix2 (0 : Fin 1) q)) := by
  unfold k0_pay5
  try dsimp only
  rw [shapeCast_self, broadcastTo_1b_ab_apply]
  rfl

/-- The column numbers laid along the events: l at (l, q). -/
theorem pay6_apply (v4 : IVec S32x1 32) (hv4 : ∀ l : Fin 32, v4 (ix2 l (0 : Fin 1)) = BitVec.ofNat 32 l.val)
    (l : Fin 32) (q : Fin 16000) : k0_pay6 v4 (ix2 l q) = BitVec.ofNat 32 l.val := by
  unfold k0_pay6
  try dsimp only
  rw [broadcastTo_apply v4 broadcasts_S32x1_S32x16000 (ix2 l q) (ix2 l (0 : Fin 1)) (fun ax => by
    match ax with
    | ⟨0, _⟩ => rfl
    | ⟨1, _⟩ => rfl), hv4]

/-- The accumulator's update at (h, l): the old entry plus, over the chunk's events, the product of the two tables. -/
theorem pay2_apply (v49 : FVec Ideal S48x16000 .bf16) (v50 v51 : IVec S32x16000 32) (a : Vec Ideal S48x32 .f32)
    (h : Fin 48) (l : Fin 32) :
    k0_pay2 (F := Ideal) v49 v50 v51 a (ix2 h l)
      = a (ix2 h l) + ∑ q : Fin 16000, v49 (ix2 h q) * ind (v50 (ix2 l q) = v51 (ix2 l q)) := by
  unfold k0_pay2
  try dsimp only
  rw [shapeCast_self]
  show a (ix2 h l) + FloatOps.matmul dot_S48x16000_S32x16000_S48x32_1_1_0_0_n_n none v49 _
      (constant S48x32 .f32 0x00000000#32) (ix2 h l) = _
  refine congrArg (a (ix2 h l) + ·) ?_
  refine (Cert.RowsByRows.matmul_rowsByRows_apply dot_S48x16000_S32x16000_S48x32_1_1_0_0_n_n_wf none v49 _ h l).trans ?_
  refine Finset.sum_congr rfl fun q _ => congrArg (v49 (ix2 h q) * ·) ?_
  exact eq_word_float _ _

end Cert.KernelIdeal.Val

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.Regroup.lean ====
/-
  The count of a bin taken chunk by chunk.

  The 20000000 events are cut into 1250 consecutive chunks of 16000. Adding up, chunk after chunk, the number of a chunk's
  events that fall in a bin — starting from zero at chunk 0 for the first half of the events and again at chunk 625 for the
  second half — gives two partial counts whose sum is the bin's count over all events: a finite sum regrouped into
  consecutive blocks, which needs only that addition is associative and commutative.
-/
import proofs.«151864_j16578573762771_2_alg».proof.Proof.Spec
import proofs.«151864_j16578573762771_2_alg».proof.Proof.LibSumBlocks
import Idealize.ShloMosaic.PureOps.Ideal.Laws

noncomputable section

namespace Cert.Hist

open Idealize.ShloMosaic Idealize.ShloMosaic.ValueIdx Cert.Lib.SumBlocks

/-- The word of +0.0 denotes 0. -/
theorem zeroW_eq : zeroW = 0 := Ideal.ofBits_zero_f32

/-- Whether the event numbered `n` falls in bin (h, l); 0 past the last event. -/
def hitN (ev : SEv.Idx → EReal) (h : Fin 48) (l : Fin 32) (n : ℕ) : EReal :=
  if hn : n < 20000000 then hit ev h l ⟨n, hn⟩ else 0

theorem hitN_of_lt (ev : SEv.Idx → EReal) (h : Fin 48) (l : Fin 32) (n : ℕ) (hn : n < 20000000) :
    hitN ev h l n = hit ev h l ⟨n, hn⟩ := dif_pos hn

/-- The number of chunk `J`'s 16000 events that fall in bin (h, l). -/
def chunk (ev : SEv.Idx → EReal) (h : Fin 48) (l : Fin 32) (J : ℕ) : EReal :=
  ∑ q : Fin 16000, hitN ev h l (J * 16000 + q.val)

/-- The running count from chunk `J0` on: zero, then one chunk added at a time. -/
def run (ev : SEv.Idx → EReal) (h : Fin 48) (l : Fin 32) (J0 : ℕ) : ℕ → EReal
  | 0 => zeroW
  | n + 1 => run ev h l J0 n + chunk ev h l (J0 + n)

theorem run_succ (ev : SEv.Idx → EReal) (h : Fin 48) (l : Fin 32) (J0 n : ℕ) :
    run ev h l J0 (n + 1) = run ev h l J0 n + chunk ev h l (J0 + n) := rfl

/-- The running count after `n` chunks is the sum of those chunks. -/
theorem run_eq_sum (ev : SEv.Idx → EReal) (h : Fin 48) (l : Fin 32) (J0 : ℕ) :
    ∀ n, run ev h l J0 n = ∑ j ∈ Finset.range n, chunk ev h l (J0 + j)
  | 0 => by rw [run, zeroW_eq, Finset.sum_range_zero]
  | n + 1 => by rw [run_succ, run_eq_sum ev h l J0 n, Finset.sum_range_succ]

/-- The count of a bin is the sum over all 1250 chunks. -/
theorem cnt_eq_chunks (ev : SEv.Idx → EReal) (h : Fin 48) (l : Fin 32) :
    cnt ev h l = ∑ J ∈ Finset.range 1250, chunk ev h l J := by
  unfold cnt chunk
  rw [sum_fin_blocks 1250 16000 (by norm_num) (hit ev h l)]
  refine Finset.sum_congr rfl fun J hJ => Finset.sum_congr rfl fun q _ => ?_
  have hJ' : J < 1250 := Finset.mem_range.mp hJ
  have hq := q.isLt
  have hn : J * 16000 + q.val < 20000000 := by omega
  rw [onNat_of_lt _ _ hn, hitN_of_lt _ _ _ _ hn]

/-- The two halves' running counts, each taken over its 625 chunks, add up to the bin's count. -/
theorem halves (ev : SEv.Idx → EReal) (h : Fin 48) (l : Fin 32) :
    run ev h l 0 625 + run ev h l 625 625 = cnt ev h l := by
  rw [run_eq_sum, run_eq_sum, cnt_eq_chunks, show (1250 : ℕ) = 625 + 625 from rfl, Finset.sum_range_add]
  refine congrArg₂ (· + ·) (Finset.sum_congr rfl fun j _ => ?_) rfl
  rw [Nat.zero_add]

end Cert.Hist

end
-- ==== Proof.KI.TripCount.lean ====
/-
  The accumulation loop counts events: over a block that holds the events B·400000 … B·400000 + 399999 (row 0 their x, row
  1 their y, row 2 their polarity), trip k adds to each accumulator entry the number of chunk B·25 + k's events in that
  entry's bin; so an accumulator that holds a running count keeps holding it, 25 chunks further on.
-/
import proofs.«151864_j16578573762771_2_alg».proof.Proof.KI.TripIdeal
import proofs.«151864_j16578573762771_2_alg».proof.Proof.Regroup

noncomputable section

namespace Cert.KernelIdeal.Val

open Cert.KernelIdeal Cert.KernelIdeal.Gen Cert.Hist
open Idealize.ShloMosaic Idealize.ShloMosaic.TcCoe Idealize.ShloMosaic.ValueIdx

/-- Which column of an event each row of a block holds: x, y, polarity (the time column is dropped). -/
def colOf : Fin 3 → Fin 4 := ![0, 1, 3]

/-- The block `x0` holds the events of block number `B`: entry (r, j) is column `colOf r` of event `B · 400000 + j`. -/
def IsBlock (ev : SEv.Idx → EReal) (B : ℕ) (x0 : Vec Ideal S3x400000 .f32) : Prop :=
  ∀ (r : Fin 3) (j : Fin 400000) (hn : B * 400000 + j.val < 20000000), x0 (ix2 r j) = ev (ix2 ⟨B * 400000 + j.val, hn⟩ (colOf r))

/-- One trip at an entry: the old entry plus the number of the trip's chunk's events in the entry's bin. -/
theorem tripAcc_apply (v3 : IVec S48x1 32) (hv3 : ∀ h : Fin 48, v3 (ix2 h (0 : Fin 1)) = BitVec.ofNat 32 h.val)
    (v4 : IVec S32x1 32) (hv4 : ∀ l : Fin 32, v4 (ix2 l (0 : Fin 1)) = BitVec.ofNat 32 l.val)
    (ev : SEv.Idx → EReal) (B : ℕ) (hB : B < 50) (x0 : Vec Ideal S3x400000 .f32) (hx : IsBlock ev B x0)
    (k : Fin k0_t1_loop.trips) (a : Vec Ideal S48x32 .f32) (h : Fin 48) (l : Fin 32) :
    tripAcc (F := Ideal) v3 v4 x0 k a (ix2 h l) = a (ix2 h l) + chunk ev h l (B * 25 + k.val) := by
  have hk : k.val < 25 := lt_of_lt_of_eq k.isLt trips_eq
  unfold tripAcc
  rw [pay2_apply]
  refine congrArg (a (ix2 h l) + ·) ?_
  unfold chunk
  refine Finset.sum_congr rfl fun q _ => ?_
  have hq := q.isLt
  have ho : 16000 * k.val + q.val < 400000 := by omega
  have hn : B * 400000 + (16000 * k.val + q.val) < 20000000 := by omega
  rw [pay4_apply v3 hv3, pay5_apply, pay6_apply v4 hv4, ind_mul,
    ld_row x0 _ _ (2 : Fin 3) (16000 * k.val) (k0_off3_eq k) q ho,
    ld_row x0 _ _ (1 : Fin 3) (16000 * k.val) (k0_off2_eq k) q ho,
    ld_row x0 _ _ (0 : Fin 3) (16000 * k.val) (k0_off1_eq k) q ho,
    hx 2 ⟨16000 * k.val + q.val, ho⟩ hn, hx 1 ⟨16000 * k.val + q.val, ho⟩ hn, hx 0 ⟨16000 * k.val + q.val, ho⟩ hn]
  have e : (B * 25 + k.val) * 16000 + q.val = B * 400000 + (16000 * k.val + q.val) := by ring
  rw [hitN_of_lt ev h l _ (by rw [e]; exact hn)]
  unfold hit ind hw xw yw pw pairWord
  simp only [e]
  rfl

/-- The accumulator through the trips: a running count stays a running count. -/
theorem accAfter_apply (v3 : IVec S48x1 32) (hv3 : ∀ h : Fin 48, v3 (ix2 h (0 : Fin 1)) = BitVec.ofNat 32 h.val)
    (v4 : IVec S32x1 32) (hv4 : ∀ l : Fin 32, v4 (ix2 l (0 : Fin 1)) = BitVec.ofNat 32 l.val)
    (ev : SEv.Idx → EReal) (B : ℕ) (hB : B < 50) (x0 : Vec Ideal S3x400000 .f32) (hx : IsBlock ev B x0)
    (g : Vec Ideal S48x32 .f32) (J0 n : ℕ) (hJ : J0 + n = B * 25) (h : Fin 48) (l : Fin 32)
    (hg : g (ix2 h l) = run ev h l J0 n) :
    ∀ k : ℕ, k ≤ k0_t1_loop.trips → accAfter (F := Ideal) v3 v4 x0 g k (ix2 h l) = run ev h l J0 (n + k)
  | 0, _ => hg
  | k + 1, hk => by
    rw [accAfter_succ v3 v4 x0 g ⟨k, hk⟩, tripAcc_apply v3 hv3 v4 hv4 ev B hB x0 hx,
      accAfter_apply v3 hv3 v4 hv4 ev B hB x0 hx g J0 n hJ h l hg k (Nat.le_of_succ_le hk),
      ← Nat.add_assoc, run_succ]
    show _ + chunk ev h l (B * 25 + k) = _ + chunk ev h l (J0 + (n + k))
    rw [← Nat.add_assoc, hJ]

end Cert.KernelIdeal.Val

end
-- ==== Proof.LibJoinAxis.lean ====
/-
  A join of equally sized arrays along one axis of a matrix, read at an entry.

  When N matrices of one shape are laid end to end along the columns (each K columns wide), column l of the
  joined matrix is column l % K of piece l / K, on the same row; laid end to end along the rows (each K rows
  tall), row l of the joined matrix is row l % K of piece l / K, on the same column. The pieces are given as a
  family indexed by their position; a literal list of N pieces of one shape is the list of that family.
-/
import Idealize.ShloMosaic.Lib.ValueIdx
import Idealize.ShloMosaic.Lib.Pipeline.Value

namespace Cert.LibJoinAxis

open Idealize.ShloMosaic Idealize.ShloMosaic.ValueIdx

/-- `N` matrices of `A` rows and `K` columns joined along the columns into `W` columns, read at row `p` and
    column `l`: piece `n = l / K` at row `p` and column `c = l % K`. -/
theorem joinCols_apply {α : Type} {A K N W : Nat} (f : Fin N → (⟨2, ![A, K]⟩ : Shape).Idx → α)
    (h : Shape.Concatenates
      ((List.ofFn fun n : Fin N => (⟨⟨2, ![A, K]⟩, f n⟩ : (s : Shape) × (s.Idx → α))).map (·.1)) ⟨2, ![A, W]⟩ 1)
    (p : Fin A) (l : Fin W) (n : Fin N) (hn : l.val / K = n.val) (c : Fin K) (hc : c.val = l.val % K) :
    concatenate ⟨2, ![A, W]⟩ 1 (List.ofFn fun n : Fin N => (⟨⟨2, ![A, K]⟩, f n⟩ : (s : Shape) × (s.Idx → α))) h (ix2 p l)
      = f n (ix2 p c) :=
  concatenate_ofFn_apply (t := ⟨2, ![A, W]⟩) (s₁ := ⟨2, ![A, K]⟩) (1 : Fin 2) f h rfl K rfl (ix2 p l) n hn (ix2 p c) hc
    (fun b hb => by
      match b with
      | ⟨0, _⟩ => rfl
      | ⟨1, _⟩ => exact absurd rfl hb)

/-- `N` matrices of `K` rows and `B` columns joined along the rows into `H` rows, read at row `l` and column
    `q`: piece `n = l / K` at row `r = l % K` and column `q`. -/
theorem joinRows_apply {α : Type} {B K N H : Nat} (f : Fin N → (⟨2, ![K, B]⟩ : Shape).Idx → α)
    (h : Shape.Concatenates
      ((List.ofFn fun n : Fin N => (⟨⟨2, ![K, B]⟩, f n⟩ : (s : Shape) × (s.Idx → α))).map (·.1)) ⟨2, ![H, B]⟩ 0)
    (l : Fin H) (q : Fin B) (n : Fin N) (hn : l.val / K = n.val) (r : Fin K) (hr : r.val = l.val % K) :
    concatenate ⟨2, ![H, B]⟩ 0 (List.ofFn fun n : Fin N => (⟨⟨2, ![K, B]⟩, f n⟩ : (s : Shape) × (s.Idx → α))) h (ix2 l q)
      = f n (ix2 r q) :=
  concatenate_ofFn_apply (t := ⟨2, ![H, B]⟩) (s₁ := ⟨2, ![K, B]⟩) (0 : Fin 2) f h rfl K rfl (ix2 l q) n hn (ix2 r q) hr
    (fun b hb => by
      match b with
      | ⟨0, _⟩ => exact absurd rfl hb
      | ⟨1, _⟩ => rfl)

end Cert.LibJoinAxis
-- ==== Proof.KI.HostIn.lean ====
/-
  What the kernel reads: the stacked array and its blocks.

  Before the kernel runs, the program takes columns 0, 1 and 3 of the events (x, y, polarity; the time column is dropped),
  turns each into a one-row matrix and stacks the three rows: entry (r, n) of the stacked [3, 20000000] array is column
  0, 1 or 3 of event n. The kernel's input block at grid point t is the column range t·400000 … t·400000 + 399999 of
  that array, all three rows: the events of block number t.
-/
import proofs.«151864_j16578573762771_2_alg».proof.Proof.KI.FrShared
import proofs.«151864_j16578573762771_2_alg».proof.Proof.KI.TripCount
import proofs.«151864_j16578573762771_2_alg».proof.Proof.LibJoinAxis
import Idealize.ShloMosaic.Lib.StableHlo.Run
import Idealize.ShloMosaic.Lib.ValueIdx
import Idealize.ShloMosaic.Lib.Pipeline.Value

noncomputable section

namespace Cert.KernelIdeal.Val

open Cert.KernelIdeal Cert.KernelIdeal.Gen Cert.KernelIdeal.Fr Cert.Hist
open Idealize.ShloMosaic Idealize.ShloMosaic.TcCoe Idealize.ShloMosaic.ValueIdx Idealize.ShloMosaic.StableHlo
open Idealize.SL Idealize.SL.Sem

variable {F : FTy → Type} [FloatOps F]

/-- A host operation over a literal family of three operands leaves, at its result, its function of the three operands'
    contents, each read at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Column `0` of the events as a one-row matrix. -/
def rowX (x : S20000000x4.Idx → Elt F .f32) : S1x20000000.Idx → Elt F .f32 :=
  broadcastInDim S1x20000000 ![1] bcast_S20000000_S1x20000000_1
    (shapeCast S20000000 (extractStridedSlice S20000000x1 ![0, 0] x slices_S20000000x4_S20000000x1_0_0) shapeCasts_S20000000x1_S20000000)
/-- Column `1` of the events as a one-row matrix. -/
def rowY (x : S20000000x4.Idx → Elt F .f32) : S1x20000000.Idx → Elt F .f32 :=
  broadcastInDim S1x20000000 ![1] bcast_S20000000_S1x20000000_1
    (shapeCast S20000000 (extractStridedSlice S20000000x1 ![0, 1] x slices_S20000000x4_S20000000x1_0_1) shapeCasts_S20000000x1_S20000000)
/-- Column `3` of the events as a one-row matrix. -/
def rowP (x : S20000000x4.Idx → Elt F .f32) : S1x20000000.Idx → Elt F .f32 :=
  broadcastInDim S1x20000000 ![1] bcast_S20000000_S1x20000000_1
    (shapeCast S20000000 (extractStridedSlice S20000000x1 ![0, 3] x slices_S20000000x4_S20000000x1_0_3) shapeCasts_S20000000x1_S20000000)

/-- The three rows, by number. -/
def rows (x : S20000000x4.Idx → Elt F .f32) : Fin 3 → (S1x20000000.Idx → Elt F .f32) := ![rowX x, rowY x, rowP x]

/-- A column of the events, sliced, flattened and laid out as one row, read at (0, n): that column of event n. -/
theorem row_apply (x : S20000000x4.Idx → Elt F .f32) (col : Fin 4) (off : Fin 2 → ℕ) (hoff : off = ![0, col.val])
    (hs : S20000000x4.Slices off S20000000x1) (n : Fin 20000000) :
    broadcastInDim S1x20000000 ![1] bcast_S20000000_S1x20000000_1
      (shapeCast S20000000 (extractStridedSlice S20000000x1 off x hs) shapeCasts_S20000000x1_S20000000) (ix2 (0 : Fin 1) n)
      = x (ix2 n col) := by
  subst hoff
  rw [broadcastInDim_apply _ bcast_S20000000_S1x20000000_1 _ (ix2 (0 : Fin 1) n) (ix1 n) (fun a => match a with
      | ⟨0, _⟩ => by show n.val = if (20000000 : Nat) = 1 then 0 else n.val; rw [if_neg (by decide)]),
    shapeCast_apply _ shapeCasts_S20000000x1_S20000000 (ix1 n) (ix2 n (0 : Fin 1))
      (by rw [Shape.rowMajor_val_two, Shape.rowMajor_val_one]; show n.val * 1 + 0 = n.val; omega),
    extractStridedSlice_apply _ x hs (ix2 n (0 : Fin 1)) (ix2 n col) (fun a => match a with
      | ⟨0, _⟩ => by show n.val = 0 + n.val; omega
      | ⟨1, _⟩ => by show col.val = col.val + 0; omega)]

theorem rows_apply (x : S20000000x4.Idx → Elt F .f32) (r : Fin 3) (n : Fin 20000000) :
    rows x r (ix2 (0 : Fin 1) n) = x (ix2 n (colOf r)) := by
  fin_cases r
  · exact row_apply x 0 ![0, 0] rfl slices_S20000000x4_S20000000x1_0_0 n
  · exact row_apply x 1 ![0, 1] rfl slices_S20000000x4_S20000000x1_0_1 n
  · exact row_apply x 3 ![0, 3] rfl slices_S20000000x4_S20000000x1_0_3 n

variable (m : (ℓ : Loc nD τ sig) → Buf (Elt F) ℓ)

/-- The stacked array, as the kernel finds it, is the three rows joined. -/
theorem v9_eq (c : Dev nD) :
    (V m c main_v9 : S3x20000000.Idx → Elt F .f32)
      = concatenate S3x20000000 0
          [⟨S1x20000000, rowX (m ((c : Thread nD τ).loc main_arg0))⟩, ⟨S1x20000000, rowY (m ((c : Thread nD τ).loc main_arg0))⟩,
            ⟨S1x20000000, rowP (m ((c : Thread nD τ).loc main_arg0))⟩]
          concatenates_S1x20000000_S1x20000000_S1x20000000_S3x20000000_d0 := by
  dsimp only [V, V0]
  simp only [hostOps0, List.flatten_cons, List.flatten_nil, List.append_nil, List.cons_append, List.nil_append]
  simp only [after_cons, after_nil]
  rw [nary3_result]
  repeat (first
    | rw [unary_result] | rw [reshape_result]
    | (rw [unary_result_ne]; rotate_left; decide)
    | (rw [reshape_result_ne]; rotate_left; decide)
    | (rw [nary_result_ne]; rotate_left; decide))
  rfl

/-- Entry (r, n) of the stacked array: column `colOf r` of event n. -/
theorem v9_apply (c : Dev nD) (r : Fin 3) (n : Fin 20000000) :
    (V m c main_v9 : S3x20000000.Idx → Elt F .f32) (ix2 r n) = m ((c : Thread nD τ).loc main_arg0) (ix2 n (colOf r)) := by
  rw [v9_eq]
  refine Eq.trans ?_ (rows_apply (m ((c : Thread nD τ).loc main_arg0)) r n)
  exact Cert.LibJoinAxis.joinRows_apply (B := 20000000) (K := 1) (N := 3) (H := 3) (rows (m ((c : Thread nD τ).loc main_arg0)))
    concatenates_S1x20000000_S1x20000000_S1x20000000_S3x20000000_d0 r n r (Nat.div_one _) (0 : Fin 1) (by simp [Nat.mod_one])

/-- The input window's block index at point t: row block 0, column block t. -/
theorem idx_in : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- Entry (r, j) of the input block at point t: column `colOf r` of event t·400000 + j. -/
theorem iblk_apply (c : Dev nD) (t : Fin cfg0.N) (r : Fin 3) (j : Fin 400000) (hn : t.val * 400000 + j.val < 20000000) :
    (iblk m c 0 t : S3x400000.Idx → Elt F .f32) (ix2 r j)
      = m ((c : Thread nD τ).loc main_arg0) (ix2 ⟨t.val * 400000 + j.val, hn⟩ (colOf r)) := by
  refine Eq.trans ?_ (v9_apply m c r ⟨t.val * 400000 + j.val, hn⟩)
  unfold iblk
  rw [View.read_apply]
  show V m c main_v9 (((cfg0.win 0).blk t).view.emb (ix2 r j)) = V m c main_v9 (ix2 r ⟨t.val * 400000 + j.val, hn⟩)
  refine congrArg (V m c main_v9) (funext fun a => Fin.ext ?_)
  match a with
  | ⟨0, _⟩ => show win0_0.index t 0 * 3 + 1 * r.val = r.val; rw [(idx_in t).1]; omega
  | ⟨1, _⟩ => show win0_0.index t 1 * 400000 + 1 * j.val = t.val * 400000 + j.val; rw [(idx_in t).2]; omega

end Cert.KernelIdeal.Val

end
-- ==== Proof.KI.Points.lean ====
/-
  What the accumulator holds after each grid point, and what the last point of a row hands to the output.

  The grid's 50 points run in order; point n works on block n of the events (400000 events, 25 chunks), and the points
  n = 25·c … 25·c + 24 share the accumulator of half c. A row's first point zeroes the accumulator before its 25
  trips; every other point goes on from what the point before left; the row's last point copies the accumulator out.
  So after point n the accumulator holds the running count of half c = n / 25 over its first (n % 25 + 1) · 25 chunks,
  and what a row's last point copies out is the half's count over all of its 625 chunks.
-/
import proofs.«151864_j16578573762771_2_alg».proof.Proof.KI.Frame
import proofs.«151864_j16578573762771_2_alg».proof.Proof.KI.HostIn

set_option maxRecDepth 16384

noncomputable section

namespace Cert.KernelIdeal.Val

open Cert.KernelIdeal Cert.KernelIdeal.Gen Cert.KernelIdeal.Fr Cert.Hist
open Idealize.ShloMosaic Idealize.ShloMosaic.TcCoe Idealize.ShloMosaic.Tactic Idealize.ShloMosaic.ValueIdx
open Idealize.SL Idealize.SL.Sem

variable {F : FTy → Type} [FloatOps F]

/-- The row numbers 0 … 47 as a column, and the column numbers 0 … 31 as a column: what the kernel compares the events'
    pair words and column bins with. -/
abbrev hiIota : IVec S48x1 32 := iota .tc S48x1 32 [0] iota_S48x1_d0_w32
abbrev loIota : IVec S32x1 32 := iota .tc S32x1 32 [0] iota_S32x1_d0_w32

theorem hiIota_apply (h : Fin 48) : hiIota (ix2 h (0 : Fin 1)) = BitVec.ofNat 32 h.val := by
  show BitVec.ofNat 32 (0 * 48 + h.val) = _
  rw [Nat.zero_mul, Nat.zero_add]

theorem loIota_apply (l : Fin 32) : loIota (ix2 l (0 : Fin 1)) = BitVec.ofNat 32 l.val := by
  show BitVec.ofNat 32 (0 * 32 + l.val) = _
  rw [Nat.zero_mul, Nat.zero_add]

theorem off000 : (![0, 0, 0] : Fin 3 → Nat) = fun _ => 0 := by
  funext a; fin_cases a <;> rfl

/-- The zero fill, read back. -/
theorem read_zero_fill {sg : RefSig} {κ : Kind} {sp : Space} (w : View sg κ sp S48x32 .f32) (f : w.ty.Contents (Elt F)) :
    w.read (Elt F) (w.writes (Elt F) f [⟨Rect.unit (s := S48x32) ![0, 0] S48x32.size inb_S48x32_S48x32_0_0, k0_pay1 (F := F)⟩])
      = k0_pay1 (F := F) := by
  rw [View.read_writes_eq_canon _ _ _ (fun y => ⟨_, List.mem_singleton_self _, View.mem_set_unit_zero off00 inb_S48x32_S48x32_0_0 y⟩),
    View.canon_unit_zero off00]

/-- An inner point leaves the 25-trip iterate of what it found. -/
theorem sout_B (c : Dev nD) (i : grid0.Coords) (arg2 : Memref sig .tc .vmem S3x400000 .f32) (harg2 : arg2.IsWhole)
    (arg3 : Memref sig .tc .vmem S1x48x32 .f32) (harg3 : arg3.IsWhole) (arg4 : Memref sig .tc .vmem S48x32 .f32)
    (harg4 : arg4.IsWhole) (hc0 : ¬cond0_0 i) (hc1 : ¬cond0_1 i) (x0 : Vec F S3x400000 .f32) (xs0 : Vec F S48x32 .f32) :
    sout0_B_0 c i arg2 harg2 arg3 harg3 arg4 harg4 hc0 hc1 x0 xs0 = accAfter hiIota loIota x0 xs0 k0_t1_loop.trips := by
  unfold sout0_B_0 kernelRun0_B
  dsimp only
  unfold kernelRun0_B.sl.v3 kernelRun0_B.sl.v4
  refine (read_pb_any Variants.none c none i arg2 harg2 arg3 harg3 arg4 harg4 hiIota loIota x0 (harg4.unread xs0) VS0_0 VS0_0.junk
    k0_t1_loop.trips le_rfl (by rw [trips_eq]; norm_num)).trans ?_
  rw [harg4.read_unread]

/-- So does a row's last point. -/
theorem sout_C (c : Dev nD) (i : grid0.Coords) (arg2 : Memref sig .tc .vmem S3x400000 .f32) (harg2 : arg2.IsWhole)
    (arg3 : Memref sig .tc .vmem S1x48x32 .f32) (harg3 : arg3.IsWhole) (arg4 : Memref sig .tc .vmem S48x32 .f32)
    (harg4 : arg4.IsWhole) (hc0 : ¬cond0_0 i) (hc1 : cond0_1 i) (x0 : Vec F S3x400000 .f32) (xs0 : Vec F S48x32 .f32) :
    sout0_C_0 c i arg2 harg2 arg3 harg3 arg4 harg4 hc0 hc1 x0 xs0 = accAfter hiIota loIota x0 xs0 k0_t1_loop.trips := by
  unfold sout0_C_0 kernelRun0_C
  dsimp only
  unfold kernelRun0_C.sl.v3 kernelRun0_C.sl.v4
  refine (read_pb_any Variants.none c none i arg2 harg2 arg3 harg3 arg4 harg4 hiIota loIota x0 (harg4.unread xs0) VS0_0 VS0_0.junk
    k0_t1_loop.trips le_rfl (by rw [trips_eq]; norm_num)).trans ?_
  rw [harg4.read_unread]

/-- A row's first point leaves the 25-trip iterate of the zero fill. -/
theorem sout_A (c : Dev nD) (i : grid0.Coords) (arg2 : Memref sig .tc .vmem S3x400000 .f32) (harg2 : arg2.IsWhole)
    (arg3 : Memref sig .tc .vmem S1x48x32 .f32) (harg3 : arg3.IsWhole) (arg4 : Memref sig .tc .vmem S48x32 .f32)
    (harg4 : arg4.IsWhole) (hc0 : cond0_0 i) (hc1 : ¬cond0_1 i) (x0 : Vec F S3x400000 .f32) :
    sout0_A_0 c i arg2 harg2 arg3 harg3 arg4 harg4 hc0 hc1 x0 = accAfter hiIota loIota x0 (k0_pay1 (F := F)) k0_t1_loop.trips := by
  unfold sout0_A_0 kernelRun0_A
  dsimp only
  unfold kernelRun0_A.sl.v3 kernelRun0_A.sl.v4 kernelRun0_A.sl.HS0_1
  rw [View.writes_append]
  refine (read_pb_any Variants.none c none i arg2 harg2 arg3 harg3 arg4 harg4 hiIota loIota x0 _ VS0_0 _
    k0_t1_loop.trips le_rfl (by rw [trips_eq]; norm_num)).trans ?_
  rw [read_zero_fill]

/-- A row's last point hands the output the accumulator it leaves, as a [1, 48, 32] block. -/
theorem out_C (c : Dev nD) (i : grid0.Coords) (arg2 : Memref sig .tc .vmem S3x400000 .f32) (harg2 : arg2.IsWhole)
    (arg3 : Memref sig .tc .vmem S1x48x32 .f32) (harg3 : arg3.IsWhole) (arg4 : Memref sig .tc .vmem S48x32 .f32)
    (harg4 : arg4.IsWhole) (hc0 : ¬cond0_0 i) (hc1 : cond0_1 i) (x0 : Vec F S3x400000 .f32) (xs0 : Vec F S48x32 .f32) :
    out0_C_1 c i arg2 harg2 arg3 harg3 arg4 harg4 hc0 hc1 x0 xs0
      = shapeCast S1x48x32 (accAfter hiIota loIota x0 xs0 k0_t1_loop.trips) shapeCasts_S48x32_S1x48x32 := by
  unfold out0_C_1
  rw [View.read_writes_eq_canon _ _ _ (cover0_C_1 c i arg2 harg2 arg3 harg3 arg4 harg4 hc0 hc1 x0 xs0)]
  unfold kernelRun0_C
  dsimp only
  rw [View.canon_unit_zero off000]
  unfold k0_pay3 kernelRun0_C.sl.v9 kernelRun0_C.sl.v3 kernelRun0_C.sl.v4
  rw [View.readAt_eq_ld, View.ld_unit_zero off00]
  refine congrArg (fun v => shapeCast S1x48x32 v shapeCasts_S48x32_S1x48x32) ?_
  refine (read_pb Variants.none c none i arg2 harg2 arg3 harg3 arg4 harg4 hiIota loIota x0 (harg4.unread xs0)
    k0_t1_loop.trips le_rfl).trans ?_
  rw [harg4.read_unread]

/-! ## At the exact values -/

variable (m : (ℓ : Loc nD τ sig) → Buf (Elt Ideal) ℓ)

/-- The input block at point t holds the events of block number t. -/
theorem isBlock (c : Dev nD) (t : Fin cfg0.N) :
    IsBlock (m ((c : Thread nD τ).loc main_arg0)) t.val (iblk m c 0 t) :=
  fun r j hn => iblk_apply m c t r j hn

/-- The zero fill at an entry: the word of zero. -/
theorem pay1_apply (h : Fin 48) (l : Fin 32) : k0_pay1 (F := Ideal) (ix2 h l) = zeroW := by
  unfold k0_pay1
  rw [shapeCast_self]
  rfl

/-- After point n the accumulator holds half n / 25's running count over its first (n % 25 + 1) · 25 chunks. -/
theorem scratch_at (c : Dev nD) (h : Fin 48) (l : Fin 32) :
    ∀ (n : ℕ) (hn : n < cfg0.N),
      (outsAt0 m c n hn).2 (ix2 h l)
        = run (m ((c : Thread nD τ).loc main_arg0)) h l (n / 25 * 625) ((n % 25 + 1) * 25) := by
  intro n
  induction n with
  | zero =>
    intro hn
    rw [outsAt0_A m c ⟨0, hn⟩ rfl (by show ¬(0 % 25 = 24); decide)]
    show sout0_A_0 _ _ _ _ _ _ _ _ _ _ (iblk m c 0 ⟨0, hn⟩) (ix2 h l) = _
    rw [sout_A]
    have := accAfter_apply hiIota hiIota_apply loIota loIota_apply (m ((c : Thread nD τ).loc main_arg0)) 0 (by norm_num)
      (iblk m c 0 ⟨0, hn⟩) (isBlock m c ⟨0, hn⟩) (k0_pay1 (F := Ideal)) 0 0 rfl h l (pay1_apply h l) k0_t1_loop.trips le_rfl
    rw [this, trips_eq]
  | succ k ih =>
    intro hn
    have hN : k + 1 < 50 := lt_of_lt_of_eq hn N_0
    have hk : k < cfg0.N := Nat.lt_of_succ_lt hn
    by_cases h0 : (k + 1) % 25 = 0
    · rw [outsAt0_A m c ⟨k + 1, hn⟩ h0 (by show ¬(k + 1) % 25 = 24; omega)]
      show sout0_A_0 _ _ _ _ _ _ _ _ _ _ (iblk m c 0 ⟨k + 1, hn⟩) (ix2 h l) = _
      rw [sout_A]
      have := accAfter_apply hiIota hiIota_apply loIota loIota_apply (m ((c : Thread nD τ).loc main_arg0)) (k + 1) hN
        (iblk m c 0 ⟨k + 1, hn⟩) (isBlock m c ⟨k + 1, hn⟩) (k0_pay1 (F := Ideal)) ((k + 1) / 25 * 625) 0 (by omega) h l
        (pay1_apply h l) k0_t1_loop.trips le_rfl
      rw [this, trips_eq, h0]
    · have e1 : k / 25 = (k + 1) / 25 := by omega
      have e2 : k % 25 + 1 = (k + 1) % 25 := by omega
      have hg : (outsAt0 m c k hk).2 (ix2 h l)
          = run (m ((c : Thread nD τ).loc main_arg0)) h l ((k + 1) / 25 * 625) ((k + 1) % 25 * 25) := by
        rw [ih hk, e1, e2]
      by_cases h1 : (k + 1) % 25 = 24
      · rw [outsAt0_C m c ⟨k + 1, hn⟩ h0 h1]
        show sout0_C_0 _ _ _ _ _ _ _ _ _ _ (iblk m c 0 ⟨k + 1, hn⟩) (outsAt0 m c k _).2 (ix2 h l) = _
        rw [sout_C]
        have := accAfter_apply hiIota hiIota_apply loIota loIota_apply (m ((c : Thread nD τ).loc main_arg0)) (k + 1) hN
          (iblk m c 0 ⟨k + 1, hn⟩) (isBlock m c ⟨k + 1, hn⟩) (outsAt0 m c k hk).2 ((k + 1) / 25 * 625) ((k + 1) % 25 * 25)
          (by omega) h l hg k0_t1_loop.trips le_rfl
        rw [this, trips_eq]
        congr 1; ring
      · rw [outsAt0_B m c ⟨k + 1, hn⟩ h0 h1]
        show sout0_B_0 _ _ _ _ _ _ _ _ _ _ (iblk m c 0 ⟨k + 1, hn⟩) (outsAt0 m c k _).2 (ix2 h l) = _
        rw [sout_B]
        have := accAfter_apply hiIota hiIota_apply loIota loIota_apply (m ((c : Thread nD τ).loc main_arg0)) (k + 1) hN
          (iblk m c 0 ⟨k + 1, hn⟩) (isBlock m c ⟨k + 1, hn⟩) (outsAt0 m c k hk).2 ((k + 1) / 25 * 625) ((k + 1) % 25 * 25)
          (by omega) h l hg k0_t1_loop.trips le_rfl
        rw [this, trips_eq]
        congr 1; ring

/-- What a row's last point (n % 25 = 24) leaves in the output's buffer: the half's count over all its 625 chunks. -/
theorem out_at_last (c : Dev nD) (h : Fin 48) (l : Fin 32) (t : Fin cfg0.N) (h1 : t.val % 25 = 24) :
    (outsAt0 m c t.val t.isLt).1 (ix3 (0 : Fin 1) h l)
      = run (m ((c : Thread nD τ).loc main_arg0)) h l (t.val / 25 * 625) 625 := by
  have hN : t.val < 50 := lt_of_lt_of_eq t.isLt N_0
  have hpos : 0 < t.val := by omega
  have hk : t.val - 1 < cfg0.N := Nat.lt_of_le_of_lt (Nat.sub_le _ _) t.isLt
  have e1 : (t.val - 1) / 25 = t.val / 25 := by omega
  have e2 : (t.val - 1) % 25 + 1 = 24 := by omega
  have hg : (outsAt0 m c (t.val - 1) hk).2 (ix2 h l)
      = run (m ((c : Thread nD τ).loc main_arg0)) h l (t.val / 25 * 625) (24 * 25) := by
    rw [scratch_at m c h l (t.val - 1) hk, e1, e2]
  rw [outsAt0_C m c t (by omega) h1]
  dsimp only
  rw [out_C, shapeCast_ab_1ab_apply]
  have := accAfter_apply hiIota hiIota_apply loIota loIota_apply (m ((c : Thread nD τ).loc main_arg0)) t.val hN
    (iblk m c 0 t) (isBlock m c t) (outsAt0 m c (t.val - 1) hk).2 (t.val / 25 * 625) (24 * 25)
    (by omega) h l hg k0_t1_loop.trips le_rfl
  rw [this, trips_eq]

end Cert.KernelIdeal.Val

end
-- ==== Proof.KI.HostOut.lean ====
/-
  The host operations after the region, at the ideal instance: from the kernel's two partial count tables to the
  normalised histogram.

  The kernel leaves an array of shape [2, 48, 32]: entry (c', h, l) is the running count of bin (h, l) over the 625
  chunks of half c' of the events. The thirteen operations that follow slice the two halves out, drop the leading
  unit axis, add them entry by entry (the two running counts of a bin add up to its count over all events), sum all
  48 · 32 entries from the word of zero (the total of the counts), compare that total with the word of zero, divide
  every entry by the total, choose the quotient or the count by the comparison, and reshape [48, 32] to [2, 24, 32]
  row-major, so that entry (p, r, l) of the result is entry (p · 24 + r, l) before the reshape. That is the
  specification's histogram, entry by entry.
-/
import proofs.«151864_j16578573762771_2_alg».proof.Proof.KI.FrShared
import proofs.«151864_j16578573762771_2_alg».proof.Proof.Regroup
import Idealize.ShloMosaic.Lib.StableHlo.Run
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Fr Cert.Hist
open Idealize.ShloMosaic Idealize.ShloMosaic.ValueIdx Idealize.ShloMosaic.StableHlo
open scoped BigOperators

/-! ## The operations as functions of the kernel's result array -/

/-- The two partial tables added entry by entry. -/
def comb (A : FVec Ideal S2x48x32 .f32) : FVec Ideal S48x32 .f32 :=
  addf (shapeCast S48x32 (extractStridedSlice S1x48x32 ![0, 0, 0] A slices_S2x48x32_S1x48x32_0_0_0) shapeCasts_S1x48x32_S48x32)
    (shapeCast S48x32 (extractStridedSlice S1x48x32 ![1, 0, 0] A slices_S2x48x32_S1x48x32_1_0_0) shapeCasts_S1x48x32_S48x32)

/-- The sum of every entry of the combined table, from the word of zero. -/
def tot (A : FVec Ideal S2x48x32 .f32) : FVec Ideal S_ .f32 :=
  Host.reduceAdd (F := Ideal) (comb A) (constant (F := Ideal) S_ .f32 0x00000000#32) reducesTo_S48x32_S_d0_1 h_S_

/-- All thirteen operations: the combined table divided by its total where that is positive, reshaped. -/
def tailFn (A : FVec Ideal S2x48x32 .f32) : FVec Ideal S2x24x32 .f32 :=
  shapeCast S2x24x32
    (select (broadcastInDim S48x32 ![] bcast_S_S48x32 (cmpf (F := Ideal) .ogt (tot A) (constant (F := Ideal) S_ .f32 0x00000000#32)))
      (Host.divf (F := Ideal) (comb A) (broadcastInDim S48x32 ![] bcast_S_S48x32 (tot A)))
      (comb A))
    shapeCasts_S48x32_S2x24x32

/-! ## Read entry by entry -/

/-- The host's division of two arrays, at an entry. -/
theorem hostDivf_apply {s : Shape} (x y : FVec Ideal s .f32) (i : s.Idx) :
    Host.divf (F := Ideal) x y i = Ideal.div (x i) (y i) := rfl

/-- Entry (h, l) of the combined table is the sum of the two halves' entries (h, l). -/
theorem comb_apply (A : FVec Ideal S2x48x32 .f32) (h : Fin 48) (l : Fin 32) :
    comb A (ix2 h l) = A (ix3 (0 : Fin 2) h l) + A (ix3 (1 : Fin 2) h l) := by
  unfold comb
  rw [addf_apply, shapeCast_1ab_ab_apply, shapeCast_1ab_ab_apply,
    extractStridedSlice_apply ![0, 0, 0] A slices_S2x48x32_S1x48x32_0_0_0 (ix3 (0 : Fin 1) h l) (ix3 (0 : Fin 2) h l)
      (fun a => match a with
        | ⟨0, _⟩ => rfl
        | ⟨1, _⟩ => (Nat.zero_add _).symm
        | ⟨2, _⟩ => (Nat.zero_add _).symm),
    extractStridedSlice_apply ![1, 0, 0] A slices_S2x48x32_S1x48x32_1_0_0 (ix3 (0 : Fin 1) h l) (ix3 (1 : Fin 2) h l)
      (fun a => match a with
        | ⟨0, _⟩ => rfl
        | ⟨1, _⟩ => (Nat.zero_add _).symm
        | ⟨2, _⟩ => (Nat.zero_add _).symm)]

/-- The host's sum over both axes of a [48, 32] array from the word of zero: that word plus the double sum. -/
theorem reduce_apply (y : FVec Ideal S48x32 .f32) (i : S_.Idx) :
    Host.reduceAdd (F := Ideal) y (constant (F := Ideal) S_ .f32 0x00000000#32) reducesTo_S48x32_S_d0_1 h_S_ i
      = zeroW + ∑ h : Fin 48, ∑ l : Fin 32, y (ix2 h l) := by
  simp only [Host.reduceAdd, Ideal.hostReduceAdd_def]
  refine (Ideal.hostReduceAdd_total reducesTo_S48x32_S_d0_1 (fun b => b.elim0) y _ i).trans ?_
  rw [sum_idx2]
  rfl

section Counts

variable (A : FVec Ideal S2x48x32 .f32) (ev : SEv.Idx → EReal)
  (hA : ∀ (c' : Fin 2) (h : Fin 48) (l : Fin 32), A (ix3 c' h l) = Cert.Hist.run ev h l (c'.val * 625) 625)

include hA

/-- When the two halves hold the running counts of their 625 chunks, entry (h, l) of the combined table is the count
    of bin (h, l). -/
theorem comb_eq_cnt (h : Fin 48) (l : Fin 32) : comb A (ix2 h l) = cnt ev h l := by
  rw [comb_apply, hA, hA]
  exact halves ev h l

/-- … and the sum of the combined table is the total of the counts. -/
theorem tot_eq (i : S_.Idx) : tot A i = total (cnt ev) := by
  unfold tot total
  rw [reduce_apply]
  refine congrArg (zeroW + ·) (Finset.sum_congr rfl fun h _ => Finset.sum_congr rfl fun l _ => ?_)
  exact comb_eq_cnt A ev hA h l

/-- … and entry (p, r, l) of the operations' result is the normalised histogram there. -/
theorem tailFn_apply (p : Fin 2) (r : Fin 24) (l : Fin 32) : tailFn A (ix3 p r l) = hist ev (ix3 p r l) := by
  unfold tailFn
  refine (shapeCast_apply _ shapeCasts_S48x32_S2x24x32 (ix3 p r l) (ix2 (pair p r) l) ?_).trans ?_
  · rw [Shape.rowMajor_val_two, Shape.rowMajor_val_three]
    rfl
  rw [select_apply, broadcastInDim_apply _ bcast_S_S48x32 _ (ix2 (pair p r) l) ix0 (fun a => a.elim0), cmpf_apply,
    hostDivf_apply, broadcastInDim_apply _ bcast_S_S48x32 _ (ix2 (pair p r) l) ix0 (fun a => a.elim0),
    tot_eq A ev hA, comb_eq_cnt A ev hA]
  rfl

/-- The operations' result is the histogram. -/
theorem tailFn_eq : tailFn A = hist ev := by
  funext i
  obtain ⟨p, r, l, rfl⟩ : ∃ (p : Fin 2) (r : Fin 24) (l : Fin 32), i = ix3 p r l := ⟨i 0, i 1, i 2, eq_ix3 i⟩
  exact tailFn_apply A ev hA p r l

end Counts

/-! ## The program's result buffer -/

/-- What the program's result buffer holds after the host operations that follow the region, when the kernel's result
    array holds, for each half of the events, the running counts of that half's 625 chunks: the histogram. -/
theorem tail_value (dats : (p : Fin 1) → (c : Dev nD) → Pipeline.Dat τ (Elt Ideal) Unit ℕ (UR sig nD τ) ℕ (cfgs p) c)
    (m : (ℓ : Loc nD τ sig) → Buf (Elt Ideal) ℓ) (c : Dev nD) (ev : SEv.Idx → EReal)
    (hA : ∀ (c' : Fin 2) (h : Fin 48) (l : Fin 32),
      ((dats 0 c).arrAt 1 cfg0.N : S2x48x32.Idx → EReal) (ix3 c' h l) = Cert.Hist.run ev h l (c'.val * 625) 625) :
    Pipeline.afterTail₀ cfgs dats 0 (V0 m) [hostOps1, hostOps1_1, hostOps1_2] c main_v21 = Cert.Hist.hist ev := by
  unfold Pipeline.afterTail₀
  have hW := Pipeline.withArrays_arr (τ := τ) spec0 launch0.win.arr_inj c (V0 m c)
    (fun w => (dats 0 c).arrAt w (cfgs 0).N) 1
  generalize Pipeline.withArrays (cfgs 0).spec c (V0 m c) (fun w => (dats 0 c).arrAt w (cfgs 0).N) = W at hW ⊢
  simp only [hostOps1, hostOps1_1, hostOps1_2, List.flatten_cons, List.flatten_nil, List.append_nil, List.cons_append,
    List.nil_append]
  after_results
  refine (rfl : _ = tailFn (W (Proc.devRef .tc main_v10))).trans ?_
  refine (congrArg tailFn hW).trans ?_
  exact tailFn_eq _ ev hA

end Cert.KernelIdeal.Val

end
-- ==== Proof.KI.Final.lean ====
/-
  The kernel's raw result and the program's result.

  The output window's block at point t is row t / 25 of the [2, 48, 32] result array, written back at the last point of each
  row of the grid; what is written back is the accumulator of that half of the events. So the raw result holds, in row c,
  half c's counts over its 625 chunks, and the host operations after the kernel — add the two halves, divide by the
  total where it is positive, lay out as [2, 24, 32] — make of it the histogram of the events.
-/
import proofs.«151864_j16578573762771_2_alg».proof.Proof.KI.Points
import proofs.«151864_j16578573762771_2_alg».proof.Proof.KI.HostOut

set_option maxRecDepth 16384

noncomputable section

namespace Cert.KernelIdeal.Val

open Cert.KernelIdeal Cert.KernelIdeal.Gen Cert.KernelIdeal.Fr Cert.Hist
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The raw result: row c holds half c's counts. -/
def raw (ev : SEv.Idx → EReal) : S2x48x32.Idx → EReal :=
  fun i => run ev (i 1) (i 2) ((i 0).val * 625) 625

theorem raw_apply (ev : SEv.Idx → EReal) (c' : Fin 2) (h : Fin 48) (l : Fin 32) :
    raw ev (ix3 c' h l) = run ev h l (c'.val * 625) 625 := rfl

/-- The output window's block index at point t: row t / 25, the whole 48 × 32 table. -/
theorem idx_out : ∀ t : Fin cfg0.N, win0_1.index t (0 : Fin 3) = t.val / 25 ∧ win0_1.index t (1 : Fin 3) = 0
    ∧ win0_1.index t (2 : Fin 3) = 0 :=
  (by decide +kernel : ∀ t : Fin grid0.N, win0_1.index t (0 : Fin 3) = t.val / 25 ∧ win0_1.index t (1 : Fin 3) = 0
    ∧ win0_1.index t (2 : Fin 3) = 0)

/-- What a row's last point writes back is that row of the raw result. -/
theorem flushed_eq (c : Dev nD) (t : Fin cfg0.N) (hf : (cfg0.win 1).flush t = true) :
    (dats m 0 c).flushed 1 t = ((cfg0.win 1).blk t).view.read (Elt Ideal) (raw (m ((c : Thread nD τ).loc main_arg0))) := by
  have h1 : t.val % 25 = 24 := (flush0_1 t).mp hf
  obtain ⟨e0, e1, e2⟩ := idx_out t
  show (cfg0.win 1).cut (grid0.coords t) ((dats m 0 c).after 1 t) = _
  rw [after0_1]
  funext j
  obtain ⟨u, h, l, rfl⟩ : ∃ (u : Fin 1) (h : Fin 48) (l : Fin 32), j = ix3 u h l := ⟨j 0, j 1, j 2, eq_ix3 j⟩
  obtain rfl : u = 0 := Subsingleton.elim _ _
  rw [View.read_apply]
  show (outsAt0 m c t.val t.isLt).1 (ix3 (0 : Fin 1) h l) = raw (m ((c : Thread nD τ).loc main_arg0)) (((cfg0.win 1).blk t).view.emb (ix3 (0 : Fin 1) h l))
  rw [out_at_last m c h l t h1]
  have e : ((cfg0.win 1).blk t).view.emb (ix3 (0 : Fin 1) h l) = ix3 ⟨t.val / 25, by have := t.isLt; have hN : cfg0.N = 50 := N_0; omega⟩ h l := by
    funext a; apply Fin.ext
    match a with
    | ⟨0, _⟩ => show win0_1.index t (0 : Fin 3) * 1 + 1 * 0 = t.val / 25; rw [e0]; omega
    | ⟨1, _⟩ => show win0_1.index t (1 : Fin 3) * 48 + 1 * h.val = h.val; rw [e1]; omega
    | ⟨2, _⟩ => show win0_1.index t (2 : Fin 3) * 32 + 1 * l.val = l.val; rw [e2]; omega
  rw [e, raw_apply]

/-- Every entry of the raw result is in the block of its row's last point. -/
theorem cover (i : S2x48x32.Idx) :
    ∃ t : Fin cfg0.N, (cfg0.win 1).flush t = true ∧ i ∈ ((cfg0.win 1).blk t).view.set := by
  have h0 : (i 0).val < 2 := (i 0).isLt
  have h1 : (i 1).val < 48 := (i 1).isLt
  have h2 : (i 2).val < 32 := (i 2).isLt
  have hN : cfg0.N = 50 := N_0
  let t : Fin cfg0.N := ⟨(i 0).val * 25 + 24, by omega⟩
  obtain ⟨e0, e1, e2⟩ := idx_out t
  have ht : t.val = (i 0).val * 25 + 24 := rfl
  refine ⟨t, (flush0_1 t).mpr (by rw [ht]; omega), ?_⟩
  show i ∈ ((View.whole main_v10).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1; rw [e0, ht]; omega
  | ⟨1, _⟩ => show win0_1.index t (1 : Fin 3) * 48 ≤ (i 1).val ∧ (i 1).val < win0_1.index t (1 : Fin 3) * 48 + 48; rw [e1]; omega
  | ⟨2, _⟩ => show win0_1.index t (2 : Fin 3) * 32 ≤ (i 2).val ∧ (i 2).val < win0_1.index t (2 : Fin 3) * 32 + 32; rw [e2]; omega

/-- So the raw result array ends holding the two halves' counts. -/
theorem final_raw (c : Dev nD) : (dats m 0 c).arrAt 1 cfg0.N = raw (m ((c : Thread nD τ).loc main_arg0)) :=
  (dats m 0 c).arrAt_eq_of_cover 1 (raw (m ((c : Thread nD τ).loc main_arg0))) (flushed_eq m c) cover

/-- The kernel program's run, read: its result is the histogram of the events, its argument unchanged. -/
theorem run_value : θ_run defs (onTc (τ := τ) (main (F := Ideal))) ⟨m, fun _ => 0, ρ⟩ fun r => ∀ c : Dev nD,
      r.2.mem ((c.tc : Thread nD τ).loc main_v21) = hist (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v21 (Pipeline.mem_restRefs_of main_v21 (by decide) (by decide))).trans
          (tail_value (dats m) m c (m ((c.tc : Thread nD τ).loc main_arg0)) (fun c' h l => by
            rw [final_raw m c]; exact raw_apply _ c' h l)),
        ((h c).2 main_arg0 (Pipeline.mem_restRefs_of main_arg0 (by decide) (by decide))).trans (W_main_arg0 m (dats m) c)⟩)
    (run_main m ρ)

end Cert.KernelIdeal.Val

end
-- ==== Proof.Words.lean ====
/-
  The 32-bit words of the histogram's bins, read as numbers.

  A bin is a clamp of a signed word to [0, top], so as a signed integer it lies in that range and equals its unsigned
  value; the channel is the word 0 or the word 1. Hence the pair word (channel · 24 + row bin) is below 48, the column
  bin below 32, and the flat bin number channel · 768 + row bin · 32 + column bin, computed in 32-bit arithmetic, never
  wraps: it is pair · 32 + column, below 1536, and not negative as a signed word. Since column < 32, the flat number
  determines the pair and the column: it equals h · 32 + l (h < 48, l < 32) exactly when the pair word is h and the
  column word is l.
-/
import proofs.«151864_j16578573762771_2_alg».proof.Proof.Spec

noncomputable section

namespace Cert.Hist

open Idealize.ShloMosaic Idealize.ShloMosaic.ValueIdx

/-- A word that is not negative as a signed integer is its unsigned value. -/
theorem toInt_eq_toNat_of_nonneg (x : BitVec 32) (h : 0 ≤ x.toInt) : x.toInt = (x.toNat : ℤ) := by
  have hx : x.toNat < 2 ^ 32 := x.isLt
  rw [BitVec.toInt_eq_toNat_cond] at h ⊢
  by_cases hc : 2 * x.toNat < 2 ^ 32
  · rw [if_pos hc]
  · rw [if_neg hc] at h
    omega

/-- A word whose unsigned value is below 2^31 is that value as a signed integer. -/
theorem toInt_eq_toNat_of_small (x : BitVec 32) (h : x.toNat < 2147483648) : x.toInt = (x.toNat : ℤ) :=
  BitVec.toInt_eq_toNat_of_lt (by omega)

/-- The signed maximum of two words, as a signed integer. -/
theorem maxsi_toInt (x y : BitVec 32) : (IntOp.maxsi x y).toInt = max x.toInt y.toInt := by
  unfold IntOp.maxsi
  by_cases h : y.slt x = true
  · rw [if_pos h]
    have := BitVec.slt_iff_toInt_lt.mp h
    omega
  · rw [if_neg h]
    have : ¬ y.toInt < x.toInt := fun h' => h (BitVec.slt_iff_toInt_lt.mpr h')
    omega

/-- The signed minimum of two words, as a signed integer. -/
theorem minsi_toInt (x y : BitVec 32) : (IntOp.minsi x y).toInt = min x.toInt y.toInt := by
  unfold IntOp.minsi
  by_cases h : x.slt y = true
  · rw [if_pos h]
    have := BitVec.slt_iff_toInt_lt.mp h
    omega
  · rw [if_neg h]
    have : ¬ x.toInt < y.toInt := fun h' => h (BitVec.slt_iff_toInt_lt.mpr h')
    omega

/-- A bin lies in [0, top] as a signed integer, whatever the coordinate. -/
theorem bin_range (top : BitVec 32) (htop : 0 ≤ top.toInt) (e : EReal) :
    0 ≤ (bin top e).toInt ∧ (bin top e).toInt ≤ top.toInt := by
  unfold bin
  rw [minsi_toInt, maxsi_toInt]
  have h0 : (0#32 : BitVec 32).toInt = 0 := by decide
  omega

/-- A column bin is below 32. -/
theorem bin31_lt (e : EReal) : (bin 31#32 e).toNat < 32 := by
  have ht : (31#32 : BitVec 32).toInt = 31 := by decide
  obtain ⟨h0, h1⟩ := bin_range 31#32 (by rw [ht]; decide) e
  have := toInt_eq_toNat_of_nonneg _ h0
  omega

/-- A row bin is below 24. -/
theorem bin23_lt (e : EReal) : (bin 23#32 e).toNat < 24 := by
  have ht : (23#32 : BitVec 32).toInt = 23 := by decide
  obtain ⟨h0, h1⟩ := bin_range 23#32 (by rw [ht]; decide) e
  have := toInt_eq_toNat_of_nonneg _ h0
  omega

/-- The channel is the word 0 or the word 1. -/
theorem chan_cases (e : EReal) : chan e = 0#32 ∨ chan e = 1#32 := by
  unfold chan Scalar.select
  by_cases h : Ideal.cmp .ogt e zeroW = 1
  · exact Or.inl (if_pos h)
  · exact Or.inr (if_neg h)

/-- The channel is below 2. -/
theorem chan_lt (e : EReal) : (chan e).toNat < 2 := by
  rcases chan_cases e with h | h <;> rw [h] <;> decide

/-- Event n's column bin is below 32. -/
theorem xw_lt (ev : SEv.Idx → EReal) (n : Fin 20000000) : (xw ev n).toNat < 32 := bin31_lt _

/-- Event n's row bin is below 24. -/
theorem yw_lt (ev : SEv.Idx → EReal) (n : Fin 20000000) : (yw ev n).toNat < 24 := bin23_lt _

/-- Event n's channel is below 2. -/
theorem pw_lt (ev : SEv.Idx → EReal) (n : Fin 20000000) : (pw ev n).toNat < 2 := chan_lt _

/-- The pair word does not wrap: it is channel · 24 + row bin. -/
theorem hw_toNat (ev : SEv.Idx → EReal) (n : Fin 20000000) :
    (hw ev n).toNat = (pw ev n).toNat * 24 + (yw ev n).toNat := by
  have hp := pw_lt ev n
  have hy := yw_lt ev n
  unfold hw IntOp.addi IntOp.muli
  rw [BitVec.toNat_add, BitVec.toNat_mul]
  have h24 : (24#32 : BitVec 32).toNat = 24 := by decide
  rw [h24]
  omega

/-- Event n's pair word is below 48. -/
theorem hw_lt (ev : SEv.Idx → EReal) (n : Fin 20000000) : (hw ev n).toNat < 48 := by
  have hp := pw_lt ev n
  have hy := yw_lt ev n
  rw [hw_toNat]
  omega

/-- Event n's flat bin number, as the 32-bit arithmetic computes it: channel · 768 + row bin · 32 + column bin. -/
def flat (ev : SEv.Idx → EReal) (n : Fin 20000000) : BitVec 32 :=
  IntOp.addi (IntOp.addi (IntOp.muli (pw ev n) 768#32) (IntOp.muli (yw ev n) 32#32)) (xw ev n)

/-- The flat bin number does not wrap: it is pair · 32 + column bin. -/
theorem flat_toNat (ev : SEv.Idx → EReal) (n : Fin 20000000) :
    (flat ev n).toNat = (hw ev n).toNat * 32 + (xw ev n).toNat := by
  have hp := pw_lt ev n
  have hy := yw_lt ev n
  have hx := xw_lt ev n
  rw [hw_toNat]
  unfold flat IntOp.addi IntOp.muli
  rw [BitVec.toNat_add, BitVec.toNat_add, BitVec.toNat_mul, BitVec.toNat_mul]
  have h768 : (768#32 : BitVec 32).toNat = 768 := by decide
  have h32 : (32#32 : BitVec 32).toNat = 32 := by decide
  rw [h768, h32]
  omega

/-- The flat bin number is below 1536. -/
theorem flat_lt (ev : SEv.Idx → EReal) (n : Fin 20000000) : (flat ev n).toNat < 1536 := by
  have hh := hw_lt ev n
  have hx := xw_lt ev n
  rw [flat_toNat]
  omega

/-- As a signed integer the flat bin number is pair · 32 + column bin. -/
theorem flat_toInt (ev : SEv.Idx → EReal) (n : Fin 20000000) :
    (flat ev n).toInt = (((hw ev n).toNat * 32 + (xw ev n).toNat : ℕ) : ℤ) := by
  have hl := flat_lt ev n
  rw [toInt_eq_toNat_of_small _ (by omega), flat_toNat]

/-- The flat bin number is not negative, so the wrap of a negative index (adding 1536) leaves it as it is. -/
theorem flat_wrap (ev : SEv.Idx → EReal) (n : Fin 20000000) :
    Scalar.select (IntOp.cmpi .slt (flat ev n) 0#32) (IntOp.addi (flat ev n) 1536#32) (flat ev n) = flat ev n := by
  have hlt : ¬ ((flat ev n).slt 0#32 = true) := by
    intro h
    have h' := BitVec.slt_iff_toInt_lt.mp h
    have h0 : (0#32 : BitVec 32).toInt = 0 := by decide
    rw [flat_toInt, h0] at h'
    omega
  have hc : IntOp.cmpi .slt (flat ev n) 0#32 = 0#1 := by
    show BitVec.ofBool ((flat ev n).slt 0#32) = 0#1
    rw [Bool.not_eq_true] at hlt
    rw [hlt]
    rfl
  rw [hc]
  exact if_neg (by decide)

/-- The flat bin number is h · 32 + l exactly when the pair word is h and the column word is l. -/
theorem flat_eq_iff (ev : SEv.Idx → EReal) (n : Fin 20000000) (h : Fin 48) (l : Fin 32) :
    (flat ev n).toInt = (((h.val * 32 + l.val : ℕ)) : ℤ)
      ↔ hw ev n = BitVec.ofNat 32 h.val ∧ xw ev n = BitVec.ofNat 32 l.val := by
  have hh := hw_lt ev n
  have hx := xw_lt ev n
  have hhv := h.isLt
  have hlv := l.isLt
  have eh : (BitVec.ofNat 32 h.val).toNat = h.val := by
    rw [BitVec.toNat_ofNat]; exact Nat.mod_eq_of_lt (by omega)
  have el : (BitVec.ofNat 32 l.val).toNat = l.val := by
    rw [BitVec.toNat_ofNat]; exact Nat.mod_eq_of_lt (by omega)
  rw [flat_toInt, BitVec.toNat_eq, BitVec.toNat_eq, eh, el]
  constructor
  · intro e
    have e' : (hw ev n).toNat * 32 + (xw ev n).toNat = h.val * 32 + l.val := by exact_mod_cast e
    omega
  · rintro ⟨e1, e2⟩
    rw [e1, e2]

end Cert.Hist

end
-- ==== Proof.LibScatterRows.lean ====
/-
  THE HOST'S ACCUMULATING ROW SCATTER, READ AT COORDINATES (at the ideal instance; no program is mentioned).

  `stablehlo.scatter` with an `add` body, an operand of rows `[N, D]` (or a vector `[N]`), scatter indices a
  column `[E, 1]` of integers and updates `[E, D]` (or `[E]`), with update_window_dims `[1]` (or none),
  inserted_window_dims `[0]`, scatter_dims_to_operand_dims `[0]` and index_vector_dim `1`: update row `e` is added
  to operand row `idx[e, 0]`, the index read as a SIGNED integer and NOT clamped; a row whose index is negative or
  at least `N` is dropped. This is what a segment sum over `E` items into `N` segments is.

  Contents. `resultIdx_eq_some_iff`: for any dimension numbers, update index `j` lands at operand index `i` exactly
  when start plus window coordinate equals `i`'s coordinate on every axis, as integers. For the two records above: the
  start and the window coordinate on each axis as plain values (`start_rows_zero` … `window_vec_zero`), which update
  lands at which element (`resultIdx_rows_iff`, `resultIdx_vec_iff`), and the scatter read at an element as the
  operand's element plus a sum over the update rows `e` with `(idx (ix2 e 0)).toInt = n`
  (`scatterAdd_rows_apply`, `scatterAdd_vec_apply`). Every statement is generic in the extents, the index width and
  the float format, and holds for any witness of the dimension numbers' conditions.
-/
import Idealize.ShloMosaic.PureOps.Ideal
import Idealize.ShloMosaic.PureOps.Ideal.Laws
import Idealize.ShloMosaic.Lib.ValueIdx
import Mathlib

noncomputable section

open scoped BigOperators
open Idealize.ShloMosaic Idealize.ShloMosaic.ValueIdx

namespace ScatterRows

/-- The landing index of a scatter update, read as equations between integers: update index `j` lands at operand
    index `i` exactly when on every operand axis the window's signed start plus the window coordinate is `i`'s
    coordinate. -/
theorem resultIdx_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hb
      have h' := Option.some.inj h
      have ha : (d.start j idx a + (d.window j a : ℤ)).toNat = (i a).val := congrArg (fun f => (f a).val) h'
      have := (hb a).1
      omega
    · cases h
  · intro h
    have hb : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hb]
    congr 1
    funext a
    refine Fin.ext ?_
    show (d.start j idx a + (d.window j a : ℤ)).toNat = (i a).val
    rw [h a]
    exact Int.toNat_natCast _

section Rows
variable {N D E w : Nat}

/-- On the operand's row axis the window of update `(e, c')` starts at the index read at `(e, 0)`, as a signed
    integer. -/
theorem start_rows_zero (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- On the operand's column axis, which the index vector does not name, the window starts at `0`. -/
theorem start_rows_one (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 1 = 0 := by
  unfold ScatterDims.start
  rw [dif_neg (show (1 : Fin 2) ∉ ([0] : List (Fin 2)) by decide)]

/-- The row axis is an inserted window axis: the window coordinate on it is `0`. -/
theorem window_rows_zero (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 0 = 0 := by
  unfold ScatterDims.window
  exact dif_neg (show (0 : Fin 2) ∉ (List.finRange 2).filter (· ∉ ([0] : List (Fin 2))) by decide)

/-- On the column axis the window coordinate of update `(e, c')` is its column `c'`. -/
theorem window_rows_one (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 1 = c'.val := by
  unfold ScatterDims.window
  refine (dif_pos (show (1 : Fin 2) ∈ (List.finRange 2).filter (· ∉ ([0] : List (Fin 2))) by decide)).trans ?_
  rfl

/-- WHICH UPDATE LANDS WHERE, by rows: update `(e, c')` lands at operand element `(n, c)` exactly when the signed
    index read at `(e, 0)` is `n` and the columns agree. -/
theorem resultIdx_rows_iff (wf : ScatterDims.WF (⟨2, ![N, D]⟩ : Shape) ⟨2, ![E, 1]⟩ ⟨2, ![E, D]⟩ [1] [0] [0] 1)
    (idx : IVec ⟨2, ![E, 1]⟩ w) (e : Fin E) (c' : Fin D) (n : Fin N) (c : Fin D) :
    (⟨[1], [0], [0], 1, wf⟩ : ScatterDims ⟨2, ![N, D]⟩ ⟨2, ![E, 1]⟩ ⟨2, ![E, D]⟩).resultIdx? (ix2 e c') idx
        = some (ix2 n c)
      ↔ (idx (ix2 e 0)).toInt = (n : ℤ) ∧ c' = c := by
  rw [resultIdx_eq_some_iff]
  constructor
  · intro h
    have h0 := h 0
    have h1 := h 1
    rw [start_rows_zero, window_rows_zero] at h0
    rw [start_rows_one, window_rows_one] at h1
    have h0' : (idx (ix2 e 0)).toInt + ((0 : ℕ) : ℤ) = (n.val : ℤ) := h0
    have h1' : (0 : ℤ) + (c'.val : ℤ) = (c.val : ℤ) := h1
    refine ⟨by omega, Fin.ext (by omega)⟩
  · rintro ⟨h0, rfl⟩ a
    match a with
    | ⟨0, _⟩ =>
      show (⟨[1], [0], [0], 1, wf⟩ : ScatterDims ⟨2, ![N, D]⟩ ⟨2, ![E, 1]⟩ ⟨2, ![E, D]⟩).start (ix2 e c') idx 0
        + (((⟨[1], [0], [0], 1, wf⟩ : ScatterDims ⟨2, ![N, D]⟩ ⟨2, ![E, 1]⟩ ⟨2, ![E, D]⟩).window (ix2 e c') 0 : ℕ) : ℤ)
        = (n.val : ℤ)
      rw [start_rows_zero, window_rows_zero]
      omega
    | ⟨1, _⟩ =>
      show (⟨[1], [0], [0], 1, wf⟩ : ScatterDims ⟨2, ![N, D]⟩ ⟨2, ![E, 1]⟩ ⟨2, ![E, D]⟩).start (ix2 e c') idx 1
        + (((⟨[1], [0], [0], 1, wf⟩ : ScatterDims ⟨2, ![N, D]⟩ ⟨2, ![E, 1]⟩ ⟨2, ![E, D]⟩).window (ix2 e c') 1 : ℕ) : ℤ)
        = (c'.val : ℤ)
      rw [start_rows_one, window_rows_one]
      omega

/-- THE ROW SCATTER READ AT `(n, c)`: the operand's element plus the sum, over the update rows `e` whose signed index
    is `n`, of the update's element `(e, c)`. Rows whose index is negative or at least `N` meet no `n` and
    contribute nowhere. -/
theorem scatterAdd_rows_apply {φ : FTy}
    (wf : ScatterDims.WF (⟨2, ![N, D]⟩ : Shape) ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (F := Ideal)
        (⟨[1], [0], [0], 1, wf⟩ : ScatterDims ⟨2, ![N, D]⟩ ⟨2, ![E, 1]⟩ ⟨2, ![E, D]⟩) x idx upd (ix2 n c)
      = x (ix2 n c)
        + ∑ e ∈ Finset.univ.filter (fun e : Fin E => (idx (ix2 e 0)).toInt = (n : ℤ)), upd (ix2 e c) := by
  show x (ix2 n c) + ∑ j ∈ Finset.univ.filter (fun j =>
      (⟨[1], [0], [0], 1, wf⟩ : ScatterDims ⟨2, ![N, D]⟩ ⟨2, ![E, 1]⟩ ⟨2, ![E, D]⟩).resultIdx? j idx
        = some (ix2 n c)), upd j = _
  congr 1
  rw [Finset.sum_filter, sum_idx2, Finset.sum_filter]
  refine Finset.sum_congr rfl fun e _ => ?_
  refine (Finset.sum_congr rfl fun b _ => if_congr (resultIdx_rows_iff wf idx e b n c) rfl rfl).trans ?_
  by_cases hq : (idx (ix2 e 0)).toInt = (n : ℤ)
  · simp [hq]
  · simp [hq]

end Rows

section Vec
variable {N E w : Nat}

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- On the vector operand's one axis the window of update `e` starts at the index read at `(e, 0)`, as a signed
    integer. -/
theorem start_vec_zero (wf : ScatterDims.WF (⟨1, ![N]⟩ : Shape) ⟨2, ![E, 1]⟩ ⟨1, ![E]⟩ [] [0] [0] 1)
    (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- The vector operand's one axis is an inserted window axis: the window coordinate on it is `0`. -/
theorem window_vec_zero (wf : ScatterDims.WF (⟨1, ![N]⟩ : Shape) ⟨2, ![E, 1]⟩ ⟨1, ![E]⟩ [] [0] [0] 1) (e : Fin E) :
    (⟨[], [0], [0], 1, wf⟩ : ScatterDims ⟨1, ![N]⟩ ⟨2, ![E, 1]⟩ ⟨1, ![E]⟩).window (ix1 e) 0 = 0 := by
  unfold ScatterDims.window
  exact dif_neg (show (0 : Fin 1) ∉ (List.finRange 1).filter (· ∉ ([0] : List (Fin 1))) by decide)

/-- WHICH UPDATE LANDS WHERE, for a vector operand: update `e` lands at operand element `n` exactly when the signed
    index read at `(e, 0)` is `n`. -/
theorem resultIdx_vec_iff (wf : ScatterDims.WF (⟨1, ![N]⟩ : Shape) ⟨2, ![E, 1]⟩ ⟨1, ![E]⟩ [] [0] [0] 1)
    (idx : IVec ⟨2, ![E, 1]⟩ w) (e : Fin E) (n : Fin N) :
    (⟨[], [0], [0], 1, wf⟩ : ScatterDims ⟨1, ![N]⟩ ⟨2, ![E, 1]⟩ ⟨1, ![E]⟩).resultIdx? (ix1 e) idx = some (ix1 n)
      ↔ (idx (ix2 e 0)).toInt = (n : ℤ) := by
  rw [resultIdx_eq_some_iff]
  constructor
  · intro h
    have h0 := h 0
    rw [start_vec_zero, window_vec_zero] at h0
    have h0' : (idx (ix2 e 0)).toInt + ((0 : ℕ) : ℤ) = (n.val : ℤ) := h0
    omega
  · intro h0 a
    match a with
    | ⟨0, _⟩ =>
      show (⟨[], [0], [0], 1, wf⟩ : ScatterDims ⟨1, ![N]⟩ ⟨2, ![E, 1]⟩ ⟨1, ![E]⟩).start (ix1 e) idx 0
        + (((⟨[], [0], [0], 1, wf⟩ : ScatterDims ⟨1, ![N]⟩ ⟨2, ![E, 1]⟩ ⟨1, ![E]⟩).window (ix1 e) 0 : ℕ) : ℤ)
        = (n.val : ℤ)
      rw [start_vec_zero, window_vec_zero]
      omega

/-- THE VECTOR SCATTER READ AT `n`: the operand's element plus the sum, over the updates `e` whose signed index is
    `n`, of the update's element `e`. Updates whose index is negative or at least `N` meet no `n` and contribute
    nowhere. -/
theorem scatterAdd_vec_apply {φ : FTy}
    (wf : ScatterDims.WF (⟨1, ![N]⟩ : Shape) ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal)
        (⟨[], [0], [0], 1, wf⟩ : ScatterDims ⟨1, ![N]⟩ ⟨2, ![E, 1]⟩ ⟨1, ![E]⟩) x idx upd (ix1 n)
      = x (ix1 n)
        + ∑ e ∈ Finset.univ.filter (fun e : Fin E => (idx (ix2 e 0)).toInt = (n : ℤ)), upd (ix1 e) := by
  show x (ix1 n) + ∑ j ∈ Finset.univ.filter (fun j =>
      (⟨[], [0], [0], 1, wf⟩ : ScatterDims ⟨1, ![N]⟩ ⟨2, ![E, 1]⟩ ⟨1, ![E]⟩).resultIdx? j idx
        = some (ix1 n)), upd j = _
  congr 1
  rw [Finset.sum_filter, sum_idx1, Finset.sum_filter]
  exact Finset.sum_congr rfl fun e _ => if_congr (resultIdx_vec_iff wf idx e n) rfl rfl

end Vec

end ScatterRows

end
-- ==== Proof.RefValue.lean ====
/-
  The reference program's result, on the extended reals, is the histogram of its argument.

  The program computes, for each event, the column bin, the row bin and the channel (the same words as the
  specification's), combines them into the flat bin number channel · 768 + row bin · 32 + column bin, replaces a
  negative number by itself plus 1536 (never taken: the number is not negative), and adds the word of 1.0 into element
  "flat bin number" of a vector of 1536 words of 0.0. An element of that vector is therefore the word of zero plus the sum
  of ones over the events whose flat number it is, which is the count of the bin. Reshaped row-major to [2, 24, 32],
  entry (p, r, l) is element (p · 24 + r) · 32 + l: the count of bin (p · 24 + r, l). The sum of all entries, regrouped
  by (p · 24 + r, l), added to the word of zero, is the specification's total, and the last three operations are the
  specification's normalisation.
-/
import proofs.«151864_j16578573762771_2_alg».proof.Proof.RefRead
import proofs.«151864_j16578573762771_2_alg».proof.Proof.Words
import proofs.«151864_j16578573762771_2_alg».proof.Proof.LibScatterRows

noncomputable section

namespace Cert.Hist.Ref

open Cert.ReferenceIdeal Cert.ReferenceIdeal.Gen Cert.ReferenceIdeal.Read
open Idealize.ShloMosaic Idealize.ShloMosaic.ValueIdx Idealize.ShloMosaic.StableHlo
open scoped BigOperators

/-! ## Where each layout operation reads -/

/-- The reshape [20000000, 1] → [20000000] reads row n at (n, 0). -/
theorem idx_v1 (n : Fin 20000000) : idx_main_v1 (ix1 n) = ix2 n (0 : Fin 1) := by
  funext a
  match a with
  | ⟨0, _⟩ => exact Fin.ext (Nat.div_one _)
  | ⟨1, _⟩ => rfl

theorem idx_v7 (n : Fin 20000000) : idx_main_v7 (ix1 n) = ix2 n (0 : Fin 1) := by
  funext a
  match a with
  | ⟨0, _⟩ => exact Fin.ext (Nat.div_one _)
  | ⟨1, _⟩ => rfl

theorem idx_v13 (n : Fin 20000000) : idx_main_v13 (ix1 n) = ix2 n (0 : Fin 1) := by
  funext a
  match a with
  | ⟨0, _⟩ => exact Fin.ext (Nat.div_one _)
  | ⟨1, _⟩ => rfl

/-- The slice of column 0 reads (n, 0) at (n, 0). -/
theorem idx_v0 (n : Fin 20000000) : idx_main_v0 (ix2 n (0 : Fin 1)) = ix2 n (0 : Fin 4) := by
  funext a
  match a with
  | ⟨0, _⟩ => rfl
  | ⟨1, _⟩ => rfl

/-- The slice of column 1 reads (n, 0) at (n, 1). -/
theorem idx_v6 (n : Fin 20000000) : idx_main_v6 (ix2 n (0 : Fin 1)) = ix2 n (1 : Fin 4) := by
  funext a
  match a with
  | ⟨0, _⟩ => rfl
  | ⟨1, _⟩ => rfl

/-- The slice of column 3 reads (n, 0) at (n, 3). -/
theorem idx_v12 (n : Fin 20000000) : idx_main_v12 (ix2 n (0 : Fin 1)) = ix2 n (3 : Fin 4) := by
  funext a
  match a with
  | ⟨0, _⟩ => rfl
  | ⟨1, _⟩ => rfl

/-- The index column [20000000, 1] reads (n, 0) at n. -/
theorem idx_v30 (n : Fin 20000000) : idx_main_v30 (ix2 n (0 : Fin 1)) = ix1 n := by
  funext a
  match a with
  | ⟨0, _⟩ => rfl

/-! ## The three words of an event, and its flat bin number -/

/-- The program's column bin of event n is the specification's. -/
theorem xbin_read (x0 : S20000000x4.Idx → EReal) (n : Fin 20000000) :
    val_main_v5 (F := Ideal) x0 (ix1 n) = xw x0 n := by
  rw [val_main_v5_apply, val_main_call0_v4_apply, val_main_call0_v3_apply, val_main_c_0_apply,
    val_main_call0_v2_apply, val_main_call0_v1_apply, val_main_call0_v0_apply, val_main_c_apply,
    val_main_v4_apply, val_main_v3_apply, val_main_v1_apply, val_main_v0_apply, val_main_v2_apply,
    val_main_cst_apply, idx_v1, idx_v0]
  rfl

/-- The program's row bin of event n is the specification's. -/
theorem ybin_read (x0 : S20000000x4.Idx → EReal) (n : Fin 20000000) :
    val_main_v11 (F := Ideal) x0 (ix1 n) = yw x0 n := by
  rw [val_main_v11_apply, val_main_call1_v4_apply, val_main_call1_v3_apply, val_main_c_3_apply,
    val_main_call1_v2_apply, val_main_call1_v1_apply, val_main_call1_v0_apply, val_main_c_2_apply,
    val_main_v10_apply, val_main_v9_apply, val_main_v7_apply, val_main_v6_apply, val_main_v8_apply,
    val_main_cst_1_apply, idx_v7, idx_v6]
  rfl

/-- The program's channel of event n is the specification's. -/
theorem chan_read (x0 : S20000000x4.Idx → EReal) (n : Fin 20000000) :
    val_main_v17 (F := Ideal) x0 (ix1 n) = pw x0 n := by
  rw [val_main_v17_apply, val_main_v16_apply, val_main_v15_apply, val_main_v13_apply, val_main_v12_apply,
    val_main_v14_apply, val_main_cst_4_apply, val_main_call2_v0_apply, val_main_c_5_apply,
    val_main_call2_v1_apply, val_main_c_6_apply, idx_v13, idx_v12]
  rfl

/-- The program's flat bin number of event n is channel · 768 + row bin · 32 + column bin. -/
theorem flat_read (x0 : S20000000x4.Idx → EReal) (n : Fin 20000000) :
    val_main_v23 (F := Ideal) x0 (ix1 n) = flat x0 n := by
  rw [val_main_v23_apply, val_main_v22_apply, val_main_v19_apply, val_main_v21_apply, val_main_v18_apply,
    val_main_c_7_apply, val_main_v20_apply, val_main_c_8_apply, chan_read, ybin_read, xbin_read]
  rfl

/-- The scatter's index for event n is its flat bin number: the wrap of a negative index is never taken. -/
theorem index_read (x0 : S20000000x4.Idx → EReal) (n : Fin 20000000) :
    val_main_v30 (F := Ideal) x0 (ix2 n (0 : Fin 1)) = flat x0 n := by
  rw [val_main_v30_apply, idx_v30, val_main_v29_apply, val_main_v26_apply, val_main_v28_apply, val_main_v25_apply,
    val_main_c_10_apply, val_main_v27_apply, val_main_c_11_apply, flat_read]
  exact flat_wrap x0 n

/-! ## The scatter, the reshape and the total -/

/-- The word of 1.0 is the number one. -/
theorem one_word : Ideal.ofBits .f32 0x3F800000#32 = (1 : EReal) := by
  simp [Ideal.ofBits, Ideal.ieee, -EReal.coe_mul]; norm_num

/-- Every update of the scatter is the number one. -/
theorem upd_read (e : Fin 20000000) : val_main_v31 (F := Ideal) (ix1 e) = (1 : EReal) := by
  rw [val_main_v31_apply, val_main_cst_12_apply]
  exact one_word

/-- Every element of the scatter's operand is the number zero. -/
theorem operand_read (j : Fin 1536) : val_main_v24 (F := Ideal) (ix1 j) = (0 : EReal) := by
  rw [val_main_v24_apply, val_main_cst_9_apply]
  exact Ideal.ofBits_zero_f32

/-- Element h · 32 + l of the scattered vector is the count of bin (h, l): zero plus one for every event whose flat bin
    number is h · 32 + l, that is, whose pair word is h and column word is l. -/
theorem scatter_read (x0 : S20000000x4.Idx → EReal) (h : Fin 48) (l : Fin 32) :
    val_main_v32 (F := Ideal) x0 (ix1 (⟨h.val * 32 + l.val, by have := h.isLt; have := l.isLt; omega⟩ : Fin 1536))
      = cnt x0 h l := by
  unfold val_main_v32
  refine (ScatterRows.scatterAdd_vec_apply scatter_S1536_S20000000x1_S20000000_n_0_0_1_wf
    (val_main_v24 (F := Ideal)) (val_main_v30 (F := Ideal) x0) (val_main_v31 (F := Ideal))
    (⟨h.val * 32 + l.val, by have := h.isLt; have := l.isLt; omega⟩ : Fin 1536)).trans ?_
  rw [operand_read, zero_add, Finset.sum_filter]
  unfold cnt
  refine Finset.sum_congr rfl fun e _ => ?_
  rw [index_read, upd_read]
  unfold hit
  exact if_congr (flat_eq_iff x0 e h l) rfl rfl

/-- Entry (p, r, l) of the reshaped array is the count of bin (p · 24 + r, l). -/
theorem reshape_read (x0 : S20000000x4.Idx → EReal) (p : Fin 2) (r : Fin 24) (l : Fin 32) :
    val_main_v33 (F := Ideal) x0 (ix3 p r l) = cnt x0 (pair p r) l := by
  rw [val_main_v33_apply]
  have e : idx_main_v33 (ix3 p r l)
      = ix1 (⟨(pair p r).val * 32 + l.val, by have := (pair p r).isLt; have := l.isLt; omega⟩ : Fin 1536) := by
    funext a
    match a with
    | ⟨0, _⟩ => rfl
  rw [e]
  exact scatter_read x0 (pair p r) l

/-- An index of [2, 24, 32] is a pair number below 48 and a column below 32. -/
def binEquiv : (⟨3, ![2, 24, 32]⟩ : Shape).Idx ≃ Fin 48 × Fin 32 where
  toFun j := (pair (j 0) (j 1), j 2)
  invFun q := ix3 (⟨q.1.val / 24, by have := q.1.isLt; omega⟩ : Fin 2) (⟨q.1.val % 24, by omega⟩ : Fin 24) q.2
  left_inv j := by
    obtain ⟨p, r, l, rfl⟩ : ∃ (p : Fin 2) (r : Fin 24) (l : Fin 32), j = ix3 p r l := ⟨j 0, j 1, j 2, eq_ix3 j⟩
    have hp := p.isLt
    have hr := r.isLt
    have e1 : (⟨(p.val * 24 + r.val) / 24, by omega⟩ : Fin 2) = p := Fin.ext (by show (p.val * 24 + r.val) / 24 = p.val; omega)
    have e2 : (⟨(p.val * 24 + r.val) % 24, by omega⟩ : Fin 24) = r := Fin.ext (by show (p.val * 24 + r.val) % 24 = r.val; omega)
    show ix3 (⟨(p.val * 24 + r.val) / 24, _⟩ : Fin 2) (⟨(p.val * 24 + r.val) % 24, _⟩ : Fin 24) l = ix3 p r l
    rw [e1, e2]
  right_inv q := by
    obtain ⟨h, l⟩ := q
    have hh := h.isLt
    refine Prod.ext (Fin.ext ?_) rfl
    show h.val / 24 * 24 + h.val % 24 = h.val
    omega

/-- A sum over the entries of [2, 24, 32] of a function of (pair number, column) is the double sum over pairs and columns. -/
theorem sum_bins {M : Type*} [AddCommMonoid M] (f : Fin 48 → Fin 32 → M) :
    ∑ j : (⟨3, ![2, 24, 32]⟩ : Shape).Idx, f (pair (j 0) (j 1)) (j 2) = ∑ h : Fin 48, ∑ l : Fin 32, f h l := by
  rw [← Fintype.sum_prod_type' f]
  exact Fintype.sum_equiv binEquiv _ _ (fun _ => rfl)

/-- The program's total is the specification's total of the counts. -/
theorem total_read (x0 : S20000000x4.Idx → EReal) (i : S_.Idx) :
    val_main_v34 (F := Ideal) x0 i = total (cnt x0) := by
  rw [val_main_v34_apply, val_main_cst_13_apply]
  have hj : ∀ j : S2x24x32.Idx, val_main_v33 (F := Ideal) x0 j = cnt x0 (pair (j 0) (j 1)) (j 2) := by
    intro j
    obtain ⟨p, r, l, rfl⟩ : ∃ (p : Fin 2) (r : Fin 24) (l : Fin 32), j = ix3 p r l := ⟨j 0, j 1, j 2, eq_ix3 j⟩
    exact reshape_read x0 p r l
  rw [Finset.sum_congr rfl (fun j _ => hj j), sum_bins (cnt x0)]
  rfl

/-! ## The result -/

/-- Entry (p, r, l) of the program's result is the specification's normalised histogram there. -/
theorem result_read (x0 : S20000000x4.Idx → EReal) (p : Fin 2) (r : Fin 24) (l : Fin 32) :
    val_main_v38 (F := Ideal) x0 (ix3 p r l) = hist x0 (ix3 p r l) := by
  unfold val_main_v38
  rw [select_apply,
    broadcastInDim_apply _ bcast_S_S2x24x32 (val_main_v35 (F := Ideal) x0) (ix3 p r l) ix0 (fun a => a.elim0),
    val_main_v35_apply, val_main_v37_apply, val_main_v36_apply, total_read, val_main_cst_14_apply,
    reshape_read]
  rfl

/-- The reference program's result is the histogram of its argument. -/
theorem result_eq (m : (ℓ : Loc nD τ sig) → Buf (Elt Ideal) ℓ) (c : Dev nD) :
    Cert.ReferenceIdeal.Value.res_main_v38 (F := Ideal) m c
      = Cert.Hist.hist (m ((c.tc : Thread nD τ).loc main_arg0)) := by
  rw [val_main_v38_eq]
  funext i
  obtain ⟨p, r, l, rfl⟩ : ∃ (p : Fin 2) (r : Fin 24) (l : Fin 32), i = ix3 p r l := ⟨i 0, i 1, i 2, eq_ix3 i⟩
  exact result_read _ p r l

end Cert.Hist.Ref

end
-- ==== Proof.lean ====
/-
  The histogram kernel against its reference: the claims' assembly.

  Both programs bin 20000000 events (x, y, t, polarity) into 2 × 24 × 32 bins and normalise by the number of events.
  The reference adds a one into the bin of each event's flat index polarity·768 + row·32 + column. The kernel keeps, per half
  of the events, a 48 × 32 table (pair = polarity·24 + row, column) in a scratch accumulator and, chunk by chunk, adds the
  product of the "pair is h" and "column is l" indicator tables of the chunk's events: at exact values that product counts
  the chunk's events in bin (h, l), the two halves add up to the bin's count (a finite sum regrouped; only associativity
  and commutativity of + are used), and (pair, column) names the same bin as the flat index. The host operations around
  the kernel stack the three used columns before it and add the halves, divide by the total where positive and lay the
  table out as [2, 24, 32] after it — the reference's last steps. So at exact values the two results are one function
  of the events (Spec.lean's `hist`): RefValue.lean reads the reference's run to it, KI/Final.lean the kernel's.
  The frames: each kernel program runs to the end, faults nowhere and leaves its argument unchanged (K/Frame.lean,
  KI/Frame.lean: the body at each of the three kinds of grid point, the accumulator carried from point to point); the
  reference's frame is its run with the result dropped. The idealization rewrote nothing, so `preserves` is trivial.
-/
import proofs.«151864_j16578573762771_2_alg».proof.Defs
import proofs.«151864_j16578573762771_2_alg».proof.Proof.Gen.Kernel
import proofs.«151864_j16578573762771_2_alg».proof.Proof.Gen.KernelIdeal
import proofs.«151864_j16578573762771_2_alg».proof.Proof.Gen.ReferenceIdeal
import proofs.«151864_j16578573762771_2_alg».proof.Proof.Gen.Pre_finite_inputs
import proofs.«151864_j16578573762771_2_alg».proof.Proof.K.Frame
import proofs.«151864_j16578573762771_2_alg».proof.Proof.KI.Frame
import proofs.«151864_j16578573762771_2_alg».proof.Proof.KI.Final
import proofs.«151864_j16578573762771_2_alg».proof.Proof.RefRun
import proofs.«151864_j16578573762771_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its argument unchanged. -/
theorem frame_k : Cert.frame_Kernel (hKernel := Cert.Kernel.Gen.facts) (hPre_finite_inputs := Cert.Pre_finite_inputs.Gen.facts) :=
  fun m ρ _ => Cert.Kernel.Fr.frame m ρ

/-- So does the kernel program read at exact values. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At exact values both programs end with the histogram of the events. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Hist.hist (m ((c.tc : Thread Cert.KernelIdeal.nD Cert.KernelIdeal.τ).loc Cert.KernelIdeal.main_arg0)),
    Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.Hist.Ref.result_eq m' c, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
